-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S5000x256 : Shape := ⟨2, ![5000, 256]⟩
abbrev S5000x1 : Shape := ⟨2, ![5000, 1]⟩
abbrev S5000x16 : Shape := ⟨2, ![5000, 16]⟩
abbrev S3200000x16 : Shape := ⟨2, ![3200000, 16]⟩
abbrev S100000x40 : Shape := ⟨2, ![100000, 40]⟩
abbrev S5000x40 : Shape := ⟨2, ![5000, 40]⟩
abbrev S1x16 : Shape := ⟨2, ![1, 16]⟩
abbrev S3200000x40 : Shape := ⟨2, ![3200000, 40]⟩
abbrev S1x40 : Shape := ⟨2, ![1, 40]⟩
abbrev S5000 : Shape := ⟨1, ![5000]⟩

abbrev nBuf : Space → Nat
  | .hbm => 50
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x16, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x16, .f32⟩
  | .hbm, ⟨31, _⟩ => ⟨S_, .f32⟩
  | .hbm, ⟨32, _⟩ => ⟨S100000x16, .f32⟩
  | .hbm, ⟨33, _⟩ => ⟨S3200000x1, .i32⟩
  | .hbm, ⟨34, _⟩ => ⟨S100000x16, .f32⟩
  | .hbm, ⟨35, _⟩ => ⟨S100000x40, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000x40, .f32⟩
  | .hbm, ⟨45, _⟩ => ⟨S_, .f32⟩
  | .hbm, ⟨46, _⟩ => ⟨S100000x40, .f32⟩
  | .hbm, ⟨47, _⟩ => ⟨S3200000x1, .i32⟩
  | .hbm, ⟨48, _⟩ => ⟨S100000x40, .f32⟩
  | .hbm, ⟨49, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x1, .f32⟩
  | .local _ .vmem, ⟨12, _⟩ => ⟨S5000x1, .f32⟩
  | .local _ .vmem, ⟨13, _⟩ => ⟨S16, .f32⟩
  | .local _ .vmem, ⟨14, _⟩ => ⟨S16x40, .f32⟩
  | .local _ .vmem, ⟨15, _⟩ => ⟨S5000x40, .f32⟩
  | .local _ .vmem, ⟨16, _⟩ => ⟨S5000x40, .f32⟩
  | .local _ .vmem, ⟨17, _⟩ => ⟨S5000x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x1, .f32⟩
  | .local _ .vmem, ⟨22, _⟩ => ⟨S5000x1, .f32⟩
  | .local _ .vmem, ⟨23, _⟩ => ⟨S40, .f32⟩
  | .local _ .vmem, ⟨24, _⟩ => ⟨S5000x40, .f32⟩
  | .local _ .vmem, ⟨25, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S5000x16_S5000x16 : S5000x16.ShapeCasts S5000x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S5000x40_S5000x40 : S5000x40.ShapeCasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S3200000x1_S3200000_n_0_0_1_wf : ScatterDims.WF S100000 S3200000x1 S3200000 [] [0] [0] 1
  dot_S5000x256_S256x16_S5000x16_1_0_0_1_n_n_wf : DotDims.WF S5000x256 S256x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x40_S5000x40_1_0_0_1_n_n_wf : DotDims.WF S5000x16 S16x40 S5000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x40.size a ≤ S16x40.size a
  hwx1_4 : ∀ i : grid1.Coords, EltTy.bits .f32 = 32 ∨ (Rect.block (s := S16x40) S16x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S40.size a ≤ S40.size a
  hwx2_3 : ∀ i : grid2.Coords, EltTy.bits .f32 = 32 ∨ (Rect.block (s := S40) S40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x40.size a ≤ S100000x40.size a
  hwx2_4 : ∀ i : grid2.Coords, EltTy.bits .f32 = 32 ∨ (Rect.block (s := S100000x40) S5000x40.size (cc2_transform_4 i) (hinb2_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S5000x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S5000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S3200000x16 : Shape := ⟨2, ![3200000, 16]⟩
abbrev S100000x1 : Shape := ⟨2, ![100000, 1]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 106
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S3200000, .f32⟩
  | .hbm, ⟨39, _⟩ => ⟨S100000, .f32⟩
  | .hbm, ⟨40, _⟩ => ⟨S100000x16, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x16, .f32⟩
  | .hbm, ⟨50, _⟩ => ⟨S3200000x1, .f32⟩
  | .hbm, ⟨51, _⟩ => ⟨S3200000x16, .f32⟩
  | .hbm, ⟨52, _⟩ => ⟨S3200000x16, .f32⟩
  | .hbm, ⟨53, _⟩ => ⟨S_, .f32⟩
  | .hbm, ⟨54, _⟩ => ⟨S100000x16, .f32⟩
  | .hbm, ⟨55, _⟩ => ⟨S3200000x1, .i32⟩
  | .hbm, ⟨56, _⟩ => ⟨S100000x16, .f32⟩
  | .hbm, ⟨57, _⟩ => ⟨S100000x1, .f32⟩
  | .hbm, ⟨58, _⟩ => ⟨S100000x16, .f32⟩
  | .hbm, ⟨59, _⟩ => ⟨S100000x16, .f32⟩
  | .hbm, ⟨60, _⟩ => ⟨S100000x16, .f32⟩
  | .hbm, ⟨61, _⟩ => ⟨S1x16, .f32⟩
  | .hbm, ⟨62, _⟩ => ⟨S100000x16, .f32⟩
  | .hbm, ⟨63, _⟩ => ⟨S100000x16, .f32⟩
  | .hbm, ⟨64, _⟩ => ⟨S_, .f32⟩
  | .hbm, ⟨65, _⟩ => ⟨S100000x16, .f32⟩
  | .hbm, ⟨66, _⟩ => ⟨S100000x16, .f32⟩
  | .hbm, ⟨67, _⟩ => ⟨S100000x40, .f32⟩
  | .hbm, ⟨68, _⟩ => ⟨S_, .i32⟩
  | .hbm, ⟨69, _⟩ => ⟨S3200000, .i32⟩
  | .hbm, ⟨70, _⟩ => ⟨S3200000, .i1⟩
  | .hbm, ⟨71, _⟩ => ⟨S_, .i32⟩
  | .hbm, ⟨72, _⟩ => ⟨S3200000, .i32⟩
  | .hbm, ⟨73, _⟩ => ⟨S3200000, .i32⟩
  | .hbm, ⟨74, _⟩ => ⟨S3200000, .i32⟩
  | .hbm, ⟨75, _⟩ => ⟨S3200000x1, .i32⟩
  | .hbm, ⟨76, _⟩ => ⟨S3200000x40, .f32⟩
  | .hbm, ⟨77, _⟩ => ⟨S3200000x1, .f32⟩
  | .hbm, ⟨78, _⟩ => ⟨S3200000x40, .f32⟩
  | .hbm, ⟨79, _⟩ => ⟨S3200000x40, .f32⟩
  | .hbm, ⟨80, _⟩ => ⟨S_, .f32⟩
  | .hbm, ⟨81, _⟩ => ⟨S100000x40, .f32⟩
  | .hbm, ⟨82, _⟩ => ⟨S3200000x1, .i32⟩
  | .hbm, ⟨83, _⟩ => ⟨S100000x40, .f32⟩
  | .hbm, ⟨84, _⟩ => ⟨S100000x1, .f32⟩
  | .hbm, ⟨85, _⟩ => ⟨S100000x40, .f32⟩
  | .hbm, ⟨86, _⟩ => ⟨S100000x40, .f32⟩
  | .hbm, ⟨87, _⟩ => ⟨S100000x40, .f32⟩
  | .hbm, ⟨88, _⟩ => ⟨S1x40, .f32⟩
  | .hbm, ⟨89, _⟩ => ⟨S100000x40, .f32⟩
  | .hbm, ⟨90, _⟩ => ⟨S100000x40, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x40, .f32⟩
  | .hbm, ⟨98, _⟩ => ⟨S100000x40, .f32⟩
  | .hbm, ⟨99, _⟩ => ⟨S100000x40, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x40, .f32⟩
  | .hbm, ⟨105, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call1_cst : Ref sig .tc := ⟨.hbm, 91, rfl⟩
abbrev main_call1_v0 : Ref sig .tc := ⟨.hbm, 92, rfl⟩
abbrev main_call1_cst_0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_cst_1 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_v70 : Ref sig .tc := ⟨.hbm, 105, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x256_S256x16_S100000x16_1_0_0_1_n_n_wf : DotDims.WF S100000x256 S256x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.KernelRun.lean ====
/-
  The kernel program's run with its result kept.

  @main is three kernel calls among three stretches of host operations.  The generated frame certificate runs the six segments
  and then forgets everything but the arguments; here the same run is read once more at the result buffer: after the last
  call it holds what the last segment boundary's contents `W6` say.  Nothing else differs from the generated statement.
-/
import proofs.«154231_j56642028700327_2_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's contents
    and the argument arrays as launched. -/
theorem run_out : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Layers

end
-- ==== Proof.Columns.lean ====
/-
  Column vectors among matrices, read at an index.

  A per-row scalar (one normalizer per node, one maximum or one log-sum per row) travels through a kernel body as a
  column `[a, 1]`: a flat `[a]` vector is cast to the column, and the column is broadcast along the feature axis to
  `[a, b]`.  Each of the two steps reads, at a row `p`, the one entry that belongs to row `p`.
-/
import Idealize.ShloMosaic.Lib.Pipeline.Value
import Idealize.ShloMosaic.Lib.ValueIdx

noncomputable section

namespace Cert.GraphConv

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.GraphConv

end
-- ==== Proof.Transform.lean ====
/-
  The first call: every node's features transformed and scaled once.

  The call walks the node axis in twenty blocks of 5000 rows.  On a block it multiplies the rows `x r` by the whole weight
  matrix (the conversion to a narrower float format on the way in is the identity on extended reals, and the product into
  a zero accumulator is the plain sum over the 256 input features) and scales row `r` by the node's normalizer `d r`, a
  column `[5000, 1]` broadcast along the 16 output features.  Read block by block and glued along the node axis, the
  output array holds `(∑ q, x r q * w q k) * d r` at every node `r` and feature `k`: `scaledTransform`.
-/
import proofs.«154231_j56642028700327_2_alg».proof.Proof.Gen.KernelIdeal.Frame
import proofs.«154231_j56642028700327_2_alg».proof.Proof.Columns
import Idealize.ShloMosaic.Lib.Pipeline.Value
import Idealize.ShloMosaic.Lib.ValueIdx
import Idealize.ShloMosaic.PureOps.Ideal.Laws

set_option maxRecDepth 16384

noncomputable section

namespace Cert.KernelIdeal.Layers

open Cert.KernelIdeal Cert.KernelIdeal.Gen Idealize.ShloMosaic Idealize.ShloMosaic.ValueIdx Idealize.ShloMosaic.TcCoe Idealize.SL.Sem
open Idealize.ShloMosaic.Pipeline (Dat Cfg Window)
open Cert.GraphConv

theorem hz2 : (![0, 0] : Fin 2 → Nat) = fun _ => 0 := funext fun a => by fin_cases a <;> rfl

/-- The transformed features of every node, each row scaled by the node's normalizer. -/
def scaledTransform (x : S100000x256.Idx → EReal) (w : S256x16.Idx → EReal) (d : S100000x1.Idx → EReal) :
    S100000x16.Idx → EReal := fun i =>
  (∑ q : Fin 256, x (ix2 (⟨(i 0).val, idx2_lt0 i⟩ : Fin 100000) q) * w (ix2 q (⟨(i 1).val, idx2_lt1 i⟩ : Fin 16)))
    * d (ix2 (⟨(i 0).val, idx2_lt0 i⟩ : Fin 100000) (0 : Fin 1))

theorem lhs0_row (i : S5000x16.Idx) (q : dot_S5000x256_S256x16_S5000x16_1_0_0_1_n_n.contr.Idx) : (dot_S5000x256_S256x16_S5000x16_1_0_0_1_n_n.lhsIdx i q 0).val = (i 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
theorem rhs0_col (i : S5000x16.Idx) (q : dot_S5000x256_S256x16_S5000x16_1_0_0_1_n_n.contr.Idx) : (dot_S5000x256_S256x16_S5000x16_1_0_0_1_n_n.rhsIdx i q 1).val = (i 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl

theorem matmul0_apply (x0 : Vec Ideal S5000x256 .f32) (x1 : Vec Ideal S256x16 .f32) (p : Fin 5000) (k : Fin 16) :
    (matmul (F := Ideal) dot_S5000x256_S256x16_S5000x16_1_0_0_1_n_n none (truncf .bf16 x0 bitsLt_bf16_f32 : FVec Ideal S5000x256 .bf16)
      (truncf .bf16 x1 bitsLt_bf16_f32 : FVec Ideal S256x16 .bf16) (constant S5000x16 .f32 0x00000000#32) : FVec Ideal S5000x16 .f32) (ix2 p k)
      = ∑ q : Fin 256, x0 (ix2 p q) * x1 (ix2 q k) := by
  simp only [matmul]
  rw [Ideal.matmul_constant_zero_apply, ← Equiv.sum_comp (contrEquiv1 dot_S5000x256_S256x16_S5000x16_1_0_0_1_n_n 256 rfl rfl).symm]
  refine Finset.sum_congr rfl fun q _ => ?_
  have hq := contrEquiv1_symm_val dot_S5000x256_S256x16_S5000x16_1_0_0_1_n_n 256 rfl rfl q
  have el : dot_S5000x256_S256x16_S5000x16_1_0_0_1_n_n.lhsIdx (ix2 p k) ((contrEquiv1 dot_S5000x256_S256x16_S5000x16_1_0_0_1_n_n 256 rfl rfl).symm q) = ix2 p q :=
    funext fun a => Fin.ext (by
      match a with
      | ⟨0, _⟩ => exact lhs0_row _ _
      | ⟨1, _⟩ => exact (dot_S5000x256_S256x16_S5000x16_1_0_0_1_n_n.lhsIdx_val_of_single rfl _ _).trans hq)
  have er : dot_S5000x256_S256x16_S5000x16_1_0_0_1_n_n.rhsIdx (ix2 p k) ((contrEquiv1 dot_S5000x256_S256x16_S5000x16_1_0_0_1_n_n 256 rfl rfl).symm q) = ix2 q k :=
    funext fun a => Fin.ext (by
      match a with
      | ⟨0, _⟩ => exact (dot_S5000x256_S256x16_S5000x16_1_0_0_1_n_n.rhsIdx_val_of_single rfl _ _).trans hq
      | ⟨1, _⟩ => exact rhs0_col _ _)
  rw [el, er]
  rfl

theorem pay0_apply (x0 : Vec Ideal S5000x256 .f32) (x1 : Vec Ideal S256x16 .f32) (x2 : Vec Ideal S5000x1 .f32) (p : Fin 5000) (k : Fin 16) :
    k0_pay1 x0 x1 x2 (ix2 p k) = (∑ q : Fin 256, x0 (ix2 p q) * x1 (ix2 q k)) * x2 (ix2 p (0 : Fin 1)) := by
  unfold k0_pay1
  rw [mulf_apply, matmul0_apply, shapeCast_self, broadcastTo_a1_ab_apply]

/-- The transformed, scaled features read at a node `P` and a feature `k`. -/
theorem scaledTransform_apply (x : S100000x256.Idx → EReal) (w : S256x16.Idx → EReal) (d : S100000x1.Idx → EReal)
    (i : S100000x16.Idx) (P : Fin 100000) (k : Fin 16) (h0 : (i 0).val = P.val) (h1 : (i 1).val = k.val) :
    scaledTransform x w d i = (∑ q : Fin 256, x (ix2 P q) * w (ix2 q k)) * d (ix2 P (0 : Fin 1)) := by
  have e0 : (⟨(i 0).val, idx2_lt0 i⟩ : Fin 100000) = P := Fin.ext h0
  have e1 : (⟨(i 1).val, idx2_lt1 i⟩ : Fin 16) = k := Fin.ext h1
  unfold scaledTransform
  rw [e0, e1]

/-- The printed index maps of the first call, decided over its twenty grid points: the features, the normalizers and the
    output move together along the node axis in blocks of 5000 rows; the weights are one whole block. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 19 :=
  (by decide +kernel : ∀ t : Fin grid0.N, _)

/-- Every block of 5000 rows is some grid point's. -/
theorem idx_onto0 : ∀ q0 : Fin 20, ∃ t : Fin cfg0.N, win0_3.index t = ![q0.val, 0] :=
  (by decide +kernel : ∀ q0 : Fin 20, ∃ t : Fin grid0.N, win0_3.index t = ![q0.val, 0])

theorem flushed0 (V : (c : Dev nD) → (b : Ref sig .tc) → Buf (Elt Ideal) ((c : Thread nD τ).loc b)) (c : Dev nD) (t : Fin cfg0.N) :
    (dat0 V c).flushed 3 t = ((cfg0.win 3).blk t).view.read (Elt Ideal) (scaledTransform (V c main_arg0) (V c main_arg2) (V c main_v11)) := by
  show (cfg0.win 3).cut (grid0.coords t) ((dat0 V c).after 3 t) = _
  rw [after0_3]
  unfold out0_3
  rw [View.canon_unit_zero hz2]
  simp only [View.ld_unit_zero (S := S5000x256) hz2, View.ld_unit_zero (S := S256x16) hz2, View.ld_unit_zero (S := S5000x1) hz2]
  obtain ⟨e00, e01, e10, e11, e20, e21, e31, hle⟩ := idx_facts0 t
  funext j
  obtain ⟨p, k, rfl⟩ : ∃ (p : Fin 5000) (k : Fin 16), j = ix2 p k := ⟨j 0, j 1, eq_ix2 j⟩
  have hp : p.val < 5000 := p.isLt
  show k0_pay1 (iblk0 V c 0 t) (iblk0 V c 1 t) (iblk0 V c 2 t) (ix2 p k)
    = scaledTransform (V c main_arg0) (V c main_arg2) (V c main_v11) (((cfg0.win 3).blk t).view.emb (ix2 p k))
  refine ((pay0_apply _ _ _ p k).trans ?_).trans
    (scaledTransform_apply _ _ _ _ (⟨win0_3.index t (0 : Fin 2) * 5000 + p.val, by omega⟩ : Fin 100000) k
      (by show win0_3.index t (0 : Fin 2) * 5000 + 1 * p.val = win0_3.index t (0 : Fin 2) * 5000 + p.val; omega)
      (by show win0_3.index t (1 : Fin 2) * 16 + 1 * k.val = k.val; omega)).symm
  have r0 : ∀ q : Fin 256, iblk0 V c 0 t (ix2 p q)
      = V c main_arg0 (ix2 (⟨win0_3.index t (0 : Fin 2) * 5000 + p.val, by omega⟩ : Fin 100000) q) := fun q => by
    show V c main_arg0 (((cfg0.win 0).blk t).view.emb (ix2 p q)) = _
    refine congrArg (V c main_arg0) (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 256 + 1 * q.val = q.val; omega
  have r1 : ∀ q : Fin 256, iblk0 V c 1 t (ix2 q k) = V c main_arg2 (ix2 q k) := fun q => by
    show V c main_arg2 (((cfg0.win 1).blk t).view.emb (ix2 q k)) = _
    refine congrArg (V c main_arg2) (funext fun a => Fin.ext ?_)
    match a with
    | ⟨0, _⟩ => show win0_1.index t (0 : Fin 2) * 256 + 1 * q.val = q.val; omega
    | ⟨1, _⟩ => show win0_1.index t (1 : Fin 2) * 16 + 1 * k.val = k.val; omega
  have r2 : iblk0 V c 2 t (ix2 p (0 : Fin 1))
      = V c main_v11 (ix2 (⟨win0_3.index t (0 : Fin 2) * 5000 + p.val, by omega⟩ : Fin 100000) (0 : Fin 1)) := by
    show V c main_v11 (((cfg0.win 2).blk t).view.emb (ix2 p (0 : Fin 1))) = _
    refine congrArg (V c main_v11) (funext fun a => Fin.ext ?_)
    match a with
    | ⟨0, _⟩ => show win0_2.index t (0 : Fin 2) * 5000 + 1 * p.val = win0_3.index t (0 : Fin 2) * 5000 + p.val; omega
    | ⟨1, _⟩ => show win0_2.index t (1 : Fin 2) * 1 + 1 * 0 = 0; omega
  rw [r2]
  exact congrArg (· * _) (Finset.sum_congr rfl fun q _ => by rw [r0 q, r1 q])

/-- An index of the array is in point `t`'s block iff each coordinate is in the block's range on its axis. -/
theorem mem_blk0 (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v12).slice (win0_3.rect t)).set ↔ _
  rw [View.set_slice_whole, Rect.mem_set_unit]
  exact Iff.rfl

/-- The twenty row blocks fill the array: node `r` is in block `r / 5000`. -/
theorem cover0 (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 16 ≤ (i 1).val ∧ (i 1).val < win0_3.index t (1 : Fin 2) * 16 + 16; omega

/-- AFTER THE FIRST CALL its output array holds the scaled transformed features of the arrays the call was entered with. -/
theorem final0 (V : (c : Dev nD) → (b : Ref sig .tc) → Buf (Elt Ideal) ((c : Thread nD τ).loc b)) (c : Dev nD) :
    (dat0 V c).arrAt 3 cfg0.N = scaledTransform (V c main_arg0) (V c main_arg2) (V c main_v11) :=
  (dat0 V c).arrAt_eq_of_cover 3 _ (fun t _ => flushed0 V c t) cover0

end Cert.KernelIdeal.Layers

end
-- ==== Proof.Hidden.lean ====
/-
  The second call: the first layer combined, rectified, transformed and scaled.

  On a block of 5000 nodes the call adds the summed neighbour rows `agg r` to the node's own scaled row `hs r`, scales the sum
  by the normalizer `d r`, adds the bias, takes the positive part, multiplies by the second weight matrix (a plain sum over
  the 16 hidden features) and scales by `d r` again.  Glued along the node axis the output array holds
  `(∑ j, max (d r * (agg r j + hs r j) + b j) 0 * w j k) * d r`: `hiddenTransform`.
-/
import proofs.«154231_j56642028700327_2_alg».proof.Proof.Gen.KernelIdeal.Frame
import proofs.«154231_j56642028700327_2_alg».proof.Proof.Columns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Cert.KernelIdeal Cert.KernelIdeal.Gen Idealize.ShloMosaic Idealize.ShloMosaic.ValueIdx Idealize.ShloMosaic.TcCoe Idealize.SL.Sem
open Idealize.ShloMosaic.Pipeline (Dat Cfg Window)
open Cert.GraphConv

theorem hz2' : (![0, 0] : Fin 2 → Nat) = fun _ => 0 := funext fun a => by fin_cases a <;> rfl
theorem hz1' : (![0] : Fin 1 → Nat) = fun _ => 0 := funext fun a => by fin_cases a; rfl

/-- One node's first layer before the second transform: the combined row, biased and rectified. -/
def rectified (agg hs : S100000x16.Idx → EReal) (d : S100000x1.Idx → EReal) (b : S16.Idx → EReal) (P : Fin 100000) (j : Fin 16) : EReal :=
  max (d (ix2 P (0 : Fin 1)) * (agg (ix2 P j) + hs (ix2 P j)) + b (ix1 j)) (Ideal.ofBits .f32 0x00000000#32)

/-- The second call's output array as one function of the arrays it was entered with. -/
def hiddenTransform (agg hs : S100000x16.Idx → EReal) (d : S100000x1.Idx → EReal) (b : S16.Idx → EReal) (w : S16x40.Idx → EReal) :
    S100000x40.Idx → EReal := fun i =>
  (∑ j : Fin 16, rectified agg hs d b (⟨(i 0).val, idx2_lt0 i⟩ : Fin 100000) j * w (ix2 j (⟨(i 1).val, idx2_lt1 i⟩ : Fin 40)))
    * d (ix2 (⟨(i 0).val, idx2_lt0 i⟩ : Fin 100000) (0 : Fin 1))

theorem hiddenTransform_apply (agg hs : S100000x16.Idx → EReal) (d : S100000x1.Idx → EReal) (b : S16.Idx → EReal) (w : S16x40.Idx → EReal)
    (i : S100000x40.Idx) (P : Fin 100000) (k : Fin 40) (h0 : (i 0).val = P.val) (h1 : (i 1).val = k.val) :
    hiddenTransform agg hs d b w i = (∑ j : Fin 16, rectified agg hs d b P j * w (ix2 j k)) * d (ix2 P (0 : Fin 1)) := by
  have e0 : (⟨(i 0).val, idx2_lt0 i⟩ : Fin 100000) = P := Fin.ext h0
  have e1 : (⟨(i 1).val, idx2_lt1 i⟩ : Fin 40) = k := Fin.ext h1
  unfold hiddenTransform
  rw [e0, e1]

theorem lhs1_row (i : S5000x40.Idx) (q : dot_S5000x16_S16x40_S5000x40_1_0_0_1_n_n.contr.Idx) : (dot_S5000x16_S16x40_S5000x40_1_0_0_1_n_n.lhsIdx i q 0).val = (i 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl
theorem rhs1_col (i : S5000x40.Idx) (q : dot_S5000x16_S16x40_S5000x40_1_0_0_1_n_n.contr.Idx) : (dot_S5000x16_S16x40_S5000x40_1_0_0_1_n_n.rhsIdx i q 1).val = (i 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-- The block's matrix product into a zero accumulator, read at a row and a column: the sum over the 16 hidden features. -/
theorem matmul1_apply (x0 : Vec Ideal S5000x16 .f32) (x1 : Vec Ideal S16x40 .f32) (p : Fin 5000) (k : Fin 40) :
    (matmul (F := Ideal) dot_S5000x16_S16x40_S5000x40_1_0_0_1_n_n none (truncf .bf16 x0 bitsLt_bf16_f32 : FVec Ideal S5000x16 .bf16)
      (truncf .bf16 x1 bitsLt_bf16_f32 : FVec Ideal S16x40 .bf16) (constant S5000x40 .f32 0x00000000#32) : FVec Ideal S5000x40 .f32) (ix2 p k)
      = ∑ q : Fin 16, x0 (ix2 p q) * x1 (ix2 q k) := by
  simp only [matmul]
  rw [Ideal.matmul_constant_zero_apply, ← Equiv.sum_comp (contrEquiv1 dot_S5000x16_S16x40_S5000x40_1_0_0_1_n_n 16 rfl rfl).symm]
  refine Finset.sum_congr rfl fun q _ => ?_
  have hq := contrEquiv1_symm_val dot_S5000x16_S16x40_S5000x40_1_0_0_1_n_n 16 rfl rfl q
  have el : dot_S5000x16_S16x40_S5000x40_1_0_0_1_n_n.lhsIdx (ix2 p k) ((contrEquiv1 dot_S5000x16_S16x40_S5000x40_1_0_0_1_n_n 16 rfl rfl).symm q) = ix2 p q :=
    funext fun a => Fin.ext (by
      match a with
      | ⟨0, _⟩ => exact lhs1_row _ _
      | ⟨1, _⟩ => exact (dot_S5000x16_S16x40_S5000x40_1_0_0_1_n_n.lhsIdx_val_of_single rfl _ _).trans hq)
  have er : dot_S5000x16_S16x40_S5000x40_1_0_0_1_n_n.rhsIdx (ix2 p k) ((contrEquiv1 dot_S5000x16_S16x40_S5000x40_1_0_0_1_n_n 16 rfl rfl).symm q) = ix2 q k :=
    funext fun a => Fin.ext (by
      match a with
      | ⟨0, _⟩ => exact (dot_S5000x16_S16x40_S5000x40_1_0_0_1_n_n.rhsIdx_val_of_single rfl _ _).trans hq
      | ⟨1, _⟩ => exact rhs1_col _ _)
  rw [el, er]
  rfl

/-- The body's stored value at a row and a column of the block, from the loaded blocks. -/
theorem pay1_apply (dd : Vec Ideal S5000x1 .f32) (a h : Vec Ideal S5000x16 .f32) (b : Vec Ideal S16 .f32) (W : Vec Ideal S16x40 .f32)
    (dd' : Vec Ideal S5000x1 .f32) (p : Fin 5000) (k : Fin 40) :
    k1_pay1 dd a h b W dd' (ix2 p k)
      = (∑ j : Fin 16, max (dd (ix2 p (0 : Fin 1)) * (a (ix2 p j) + h (ix2 p j)) + b (ix1 j)) (Ideal.ofBits .f32 0x00000000#32) * W (ix2 j k))
          * dd' (ix2 p (0 : Fin 1)) := by
  unfold k1_pay1
  rw [mulf_apply, matmul1_apply, broadcastTo_a1_ab_apply]
  simp only [shapeCast_self]
  refine congrArg (fun s : EReal => s * dd' (ix2 p (0 : Fin 1))) (Finset.sum_congr rfl fun j _ => congrArg (fun y : EReal => y * W (ix2 j k)) ?_)
  rw [maximumf_apply, addf_apply, mulf_apply, broadcastTo_a1_ab_apply, addf_apply, broadcastTo_1b_ab_apply, shapeCast_a_1a_apply]
  rfl

theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 1) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

theorem idx_onto1 : ∀ q0 : Fin 20, ∃ t : Fin cfg1.N, win1_5.index t = ![q0.val, 0] :=
  (by decide +kernel : ∀ q0 : Fin 20, ∃ t : Fin grid1.N, win1_5.index t = ![q0.val, 0])

theorem flushed1 (V : (c : Dev nD) → (b : Ref sig .tc) → Buf (Elt Ideal) ((c : Thread nD τ).loc b)) (c : Dev nD) (t : Fin cfg1.N) :
    (dat1 V c).flushed 5 t = ((cfg1.win 5).blk t).view.read (Elt Ideal)
      (hiddenTransform (V c main_v22) (V c main_v12) (V c main_v11) (V c main_arg3) (V c main_arg4)) := by
  show (cfg1.win 5).cut (grid1.coords t) ((dat1 V c).after 5 t) = _
  rw [after1_5]
  unfold out1_5
  rw [View.canon_unit_zero hz2']
  simp only [View.ld_unit_zero (S := S5000x16) hz2', View.ld_unit_zero (S := S5000x1) hz2', View.ld_unit_zero (S := S16x40) hz2',
    View.ld_unit_zero (S := S16) hz1']
  obtain ⟨e00, e01, e10, e11, e20, e21, e30, e40, e41, e51, hle⟩ := idx_facts1 t
  funext j
  obtain ⟨p, k, rfl⟩ : ∃ (p : Fin 5000) (k : Fin 40), j = ix2 p k := ⟨j 0, j 1, eq_ix2 j⟩
  have hp : p.val < 5000 := p.isLt
  show k1_pay1 (iblk1 V c 2 t) (iblk1 V c 0 t) (iblk1 V c 1 t) (iblk1 V c 3 t) (iblk1 V c 4 t) (iblk1 V c 2 t) (ix2 p k)
    = hiddenTransform (V c main_v22) (V c main_v12) (V c main_v11) (V c main_arg3) (V c main_arg4) (((cfg1.win 5).blk t).view.emb (ix2 p k))
  refine ((pay1_apply _ _ _ _ _ _ p k).trans ?_).trans
    (hiddenTransform_apply _ _ _ _ _ _ (⟨win1_5.index t (0 : Fin 2) * 5000 + p.val, by omega⟩ : Fin 100000) k
      (by show win1_5.index t (0 : Fin 2) * 5000 + 1 * p.val = win1_5.index t (0 : Fin 2) * 5000 + p.val; omega)
      (by show win1_5.index t (1 : Fin 2) * 40 + 1 * k.val = k.val; omega)).symm
  have r0 : ∀ q : Fin 16, iblk1 V c 0 t (ix2 p q)
      = V c main_v22 (ix2 (⟨win1_5.index t (0 : Fin 2) * 5000 + p.val, by omega⟩ : Fin 100000) q) := fun q => by
    show V c main_v22 (((cfg1.win 0).blk t).view.emb (ix2 p q)) = _
    refine congrArg (V c main_v22) (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 16 + 1 * q.val = q.val; omega
  have r1 : ∀ q : Fin 16, iblk1 V c 1 t (ix2 p q)
      = V c main_v12 (ix2 (⟨win1_5.index t (0 : Fin 2) * 5000 + p.val, by omega⟩ : Fin 100000) q) := fun q => by
    show V c main_v12 (((cfg1.win 1).blk t).view.emb (ix2 p q)) = _
    refine congrArg (V c main_v12) (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 16 + 1 * q.val = q.val; omega
  have r2 : iblk1 V c 2 t (ix2 p (0 : Fin 1))
      = V c main_v11 (ix2 (⟨win1_5.index t (0 : Fin 2) * 5000 + p.val, by omega⟩ : Fin 100000) (0 : Fin 1)) := by
    show V c main_v11 (((cfg1.win 2).blk t).view.emb (ix2 p (0 : Fin 1))) = _
    refine congrArg (V c main_v11) (funext fun a => Fin.ext ?_)
    match a with
    | ⟨0, _⟩ => show win1_2.index t (0 : Fin 2) * 5000 + 1 * p.val = win1_5.index t (0 : Fin 2) * 5000 + p.val; omega
    | ⟨1, _⟩ => show win1_2.index t (1 : Fin 2) * 1 + 1 * 0 = 0; omega
  have r3 : ∀ q : Fin 16, iblk1 V c 3 t (ix1 q) = V c main_arg3 (ix1 q) := fun q => by
    show V c main_arg3 (((cfg1.win 3).blk t).view.emb (ix1 q)) = _
    refine congrArg (V c main_arg3) (funext fun a => Fin.ext ?_)
    match a with
    | ⟨0, _⟩ => show win1_3.index t (0 : Fin 1) * 16 + 1 * q.val = q.val; omega
  have r4 : ∀ q : Fin 16, iblk1 V c 4 t (ix2 q k) = V c main_arg4 (ix2 q k) := fun q => by
    show V c main_arg4 (((cfg1.win 4).blk t).view.emb (ix2 q k)) = _
    refine congrArg (V c main_arg4) (funext fun a => Fin.ext ?_)
    match a with
    | ⟨0, _⟩ => show win1_4.index t (0 : Fin 2) * 16 + 1 * q.val = q.val; omega
    | ⟨1, _⟩ => show win1_4.index t (1 : Fin 2) * 40 + 1 * k.val = k.val; omega
  rw [r2]
  refine congrArg (fun s : EReal => s * V c main_v11 (ix2 (⟨win1_5.index t (0 : Fin 2) * 5000 + p.val, by omega⟩ : Fin 100000) (0 : Fin 1))) (Finset.sum_congr rfl fun q _ => ?_)
  unfold rectified
  rw [r0 q, r1 q, r3 q, r4 q]

theorem mem_blk1 (t : Fin cfg1.N) (i : S100000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v23).slice (win1_5.rect t)).set ↔ _
  rw [View.set_slice_whole, Rect.mem_set_unit]
  exact Iff.rfl

theorem cover1 (i : S100000x40.Idx) : ∃ t : Fin cfg1.N, (cfg1.win 5).flush t = true ∧ i ∈ ((cfg1.win 5).blk t).view.set := by
  have hi0 : (i 0).val < 100000 := (i 0).isLt
  have hi1 : (i 1).val < 40 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 40 ≤ (i 1).val ∧ (i 1).val < win1_5.index t (1 : Fin 2) * 40 + 40; omega

/-- AFTER THE SECOND CALL its output array holds `hiddenTransform` of the arrays the call was entered with. -/
theorem final1 (V : (c : Dev nD) → (b : Ref sig .tc) → Buf (Elt Ideal) ((c : Thread nD τ).loc b)) (c : Dev nD) :
    (dat1 V c).arrAt 5 cfg1.N = hiddenTransform (V c main_v22) (V c main_v12) (V c main_v11) (V c main_arg3) (V c main_arg4) :=
  (dat1 V c).arrAt_eq_of_cover 5 _ (fun t _ => flushed1 V c t) cover1

end Cert.KernelIdeal.Layers

end
-- ==== Proof.RowSoftmax.lean ====
/-
  The log-softmax of one row of forty class scores, on the extended reals: the row's maximum (folded from minus infinity) is
  subtracted from every score, and then the logarithm of the sum of the exponentials of the shifted scores.
-/
import Idealize.ShloMosaic.PureOps.Ideal

noncomputable section

namespace Cert.GraphConv

open Idealize.ShloMosaic

/-- A row's maximum, folded from minus infinity. -/
def rowMax (z : Fin 40 → EReal) : EReal := (Finset.univ : Finset (Fin 40)).fold max (Ideal.ofBits .f32 0xFF800000#32) z

/-- The log-softmax of one row of 40 classes. -/
def logSoftmaxRow (z : Fin 40 → EReal) (k : Fin 40) : EReal :=
  (z k - rowMax z) - Ideal.log (∑ k' : Fin 40, Ideal.exp (z k' - rowMax z))

end Cert.GraphConv

end
-- ==== Proof.LogProbs.lean ====
/-
  The third call: the second layer combined, and the row-wise log-softmax.

  On a block of 5000 nodes the call forms `z r k = d r * (agg r k + hs r k) + b k` over the 40 classes, takes the row's
  maximum from minus infinity, subtracts it, and subtracts the logarithm of the row's sum of exponentials: the
  log-softmax of the row `z r`.  Both lane reductions are read as a fold, resp. a sum, over the 40 classes of the row.
-/
import proofs.«154231_j56642028700327_2_alg».proof.Proof.Gen.KernelIdeal.Frame
import proofs.«154231_j56642028700327_2_alg».proof.Proof.Columns
import proofs.«154231_j56642028700327_2_alg».proof.Proof.RowSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Cert.KernelIdeal Cert.KernelIdeal.Gen Idealize.ShloMosaic Idealize.ShloMosaic.ValueIdx Idealize.ShloMosaic.TcCoe Idealize.SL.Sem
open Idealize.ShloMosaic.Pipeline (Dat Cfg Window)
open Cert.GraphConv

theorem hz2'' : (![0, 0] : Fin 2 → Nat) = fun _ => 0 := funext fun a => by fin_cases a <;> rfl
theorem hz1'' : (![0] : Fin 1 → Nat) = fun _ => 0 := funext fun a => by fin_cases a; rfl

/-- One node's combined second-layer row. -/
def combinedRow (agg hs : S100000x40.Idx → EReal) (d : S100000x1.Idx → EReal) (b : S40.Idx → EReal) (P : Fin 100000) (k : Fin 40) : EReal :=
  d (ix2 P (0 : Fin 1)) * (agg (ix2 P k) + hs (ix2 P k)) + b (ix1 k)

/-- The third call's output array as one function of the arrays it was entered with. -/
def classLogProbs (agg hs : S100000x40.Idx → EReal) (d : S100000x1.Idx → EReal) (b : S40.Idx → EReal) : S100000x40.Idx → EReal := fun i =>
  logSoftmaxRow (combinedRow agg hs d b (⟨(i 0).val, idx2_lt0 i⟩ : Fin 100000)) (⟨(i 1).val, idx2_lt1 i⟩ : Fin 40)

theorem classLogProbs_apply (agg hs : S100000x40.Idx → EReal) (d : S100000x1.Idx → EReal) (b : S40.Idx → EReal)
    (i : S100000x40.Idx) (P : Fin 100000) (k : Fin 40) (h0 : (i 0).val = P.val) (h1 : (i 1).val = k.val) :
    classLogProbs agg hs d b i = logSoftmaxRow (combinedRow agg hs d b P) k := by
  have e0 : (⟨(i 0).val, idx2_lt0 i⟩ : Fin 100000) = P := Fin.ext h0
  have e1 : (⟨(i 1).val, idx2_lt1 i⟩ : Fin 40) = k := Fin.ext h1
  unfold classLogProbs
  rw [e0, e1]

/-- The reduced row index with class `k` put back is `(p, k)`. -/
theorem lift_row (h : S5000x40.Reduces [1] S5000) (p : Fin 5000) (k : Fin (S5000x40.size 1)) :
    h.lift (ix1 p) k = ix2 p (⟨k.val, k.isLt⟩ : Fin 40) := by
  funext c; apply Fin.ext
  fin_cases c <;> rfl

/-- The block's lane maximum at row `p`: the fold of `max` from minus infinity over the row's 40 classes. -/
theorem laneMax_apply (src : FVec Ideal S5000x40 .f32) (p : Fin 5000) :
    multiReduction .maximumf [1] S5000 src 0xFF800000#32 reduces_S5000x40_S5000 (.inl rfl) rfl (ix1 p)
      = rowMax fun k => src (ix2 p k) := by
  refine (Ideal.multiReduction_maximumf_single src _ reduces_S5000x40_S5000 (.inl rfl) rfl (ix1 p)).trans ?_
  have hf : (src ∘ reduces_S5000x40_S5000.lift (ix1 p)) = fun k : Fin 40 => src (ix2 p k) :=
    funext fun k => congrArg src (lift_row _ p k)
  exact congrArg (fun f => Finset.fold max (Ideal.ofBits .f32 0xFF800000#32) f (Finset.univ : Finset (Fin 40))) hf

/-- The block's lane sum at row `p`: the sum over the row's 40 classes. -/
theorem laneSum_apply (src : FVec Ideal S5000x40 .f32) (p : Fin 5000) :
    multiReduction .add [1] S5000 src 0x00000000#32 reduces_S5000x40_S5000 (.inl rfl) rfl (ix1 p)
      = ∑ k : Fin 40, src (ix2 p k) := by
  refine (Ideal.multiReduction_add_single src _ reduces_S5000x40_S5000 (.inl rfl) rfl (ix1 p)).trans ?_
  exact Finset.sum_congr rfl fun k _ => congrArg src (lift_row _ p k)

/-- The block's log-softmax as one function of the combined block `Z`: subtract the lane maximum, then the logarithm of
    the lane sum of the exponentials. -/
def blockLogSoftmax (Z : FVec Ideal S5000x40 .f32) : FVec Ideal S5000x40 .f32 :=
  subf (subf Z (broadcastTo S5000x40 (shapeCast S5000x1 (multiReduction .maximumf [1] S5000 Z 0xFF800000#32 reduces_S5000x40_S5000 (.inl rfl) rfl) shapeCasts_S5000_S5000x1) broadcasts_S5000x1_S5000x40))
    (broadcastTo S5000x40 (log (shapeCast S5000x1 (multiReduction .add [1] S5000
      (exp (subf Z (broadcastTo S5000x40 (shapeCast S5000x1 (multiReduction .maximumf [1] S5000 Z 0xFF800000#32 reduces_S5000x40_S5000 (.inl rfl) rfl) shapeCasts_S5000_S5000x1) broadcasts_S5000x1_S5000x40)))
      0x00000000#32 reduces_S5000x40_S5000 (.inl rfl) rfl) shapeCasts_S5000_S5000x1)) broadcasts_S5000x1_S5000x40)

/-- The broadcast lane maximum read anywhere in row `p` is the row's maximum. -/
theorem rowMax_bcast_apply (Z : FVec Ideal S5000x40 .f32) (p : Fin 5000) (k : Fin 40) :
    broadcastTo S5000x40 (shapeCast S5000x1 (multiReduction .maximumf [1] S5000 Z 0xFF800000#32 reduces_S5000x40_S5000 (.inl rfl) rfl) shapeCasts_S5000_S5000x1) broadcasts_S5000x1_S5000x40 (ix2 p k)
      = rowMax fun k' => Z (ix2 p k') := by
  rw [broadcastTo_a1_ab_apply, shapeCast_a_a1_apply]
  exact laneMax_apply Z p

theorem blockLogSoftmax_apply (Z : FVec Ideal S5000x40 .f32) (p : Fin 5000) (k : Fin 40) :
    blockLogSoftmax Z (ix2 p k) = logSoftmaxRow (fun k' => Z (ix2 p k')) k := by
  unfold blockLogSoftmax logSoftmaxRow
  rw [subf_apply, subf_apply, rowMax_bcast_apply, broadcastTo_a1_ab_apply]
  refine congrArg (fun y => Z (ix2 p k) - (rowMax fun k' => Z (ix2 p k')) - y) ?_
  show FloatOps.log ((shapeCast S5000x1 _ shapeCasts_S5000_S5000x1) (ix2 p (0 : Fin 1))) = _
  rw [shapeCast_a_a1_apply, laneSum_apply]
  refine congrArg Ideal.log (Finset.sum_congr rfl fun k' _ => ?_)
  show FloatOps.exp ((subf Z _) (ix2 p k')) = _
  rw [subf_apply, rowMax_bcast_apply]
  rfl

/-- The body's stored value at a row and a class of the block, from the loaded blocks. -/
theorem pay2_apply (dd : Vec Ideal S5000x1 .f32) (a h : Vec Ideal S5000x40 .f32) (b : Vec Ideal S40 .f32) (p : Fin 5000) (k : Fin 40) :
    k2_pay1 dd a h b (ix2 p k)
      = logSoftmaxRow (fun k' => dd (ix2 p (0 : Fin 1)) * (a (ix2 p k') + h (ix2 p k')) + b (ix1 k')) k := by
  show blockLogSoftmax (addf (mulf (broadcastTo S5000x40 (shapeCast S5000x1 dd shapeCasts_S5000x1_S5000x1) broadcasts_S5000x1_S5000x40)
      (addf (shapeCast S5000x40 a shapeCasts_S5000x40_S5000x40) (shapeCast S5000x40 h shapeCasts_S5000x40_S5000x40)))
      (broadcastTo S5000x40 (shapeCast S1x40 b shapeCasts_S40_S1x40) broadcasts_S1x40_S5000x40)) (ix2 p k) = _
  rw [blockLogSoftmax_apply]
  refine congrArg (fun z => logSoftmaxRow z k) (funext fun k' => ?_)
  rw [addf_apply, mulf_apply, broadcastTo_a1_ab_apply, shapeCast_self, addf_apply, shapeCast_self, shapeCast_self,
    broadcastTo_1b_ab_apply, shapeCast_a_1a_apply]

theorem idx_facts2 : ∀ t : Fin cfg2.N, win2_0.index t (0 : Fin 2) = win2_4.index t (0 : Fin 2)
    ∧ win2_0.index t (1 : Fin 2) = 0
    ∧ win2_1.index t (0 : Fin 2) = win2_4.index t (0 : Fin 2) ∧ win2_1.index t (1 : Fin 2) = 0
    ∧ win2_2.index t (0 : Fin 2) = win2_4.index t (0 : Fin 2) ∧ win2_2.index t (1 : Fin 2) = 0
    ∧ win2_3.index t (0 : Fin 1) = 0
    ∧ win2_4.index t (1 : Fin 2) = 0 ∧ win2_4.index t (0 : Fin 2) ≤ 19 :=
  (by decide +kernel : ∀ t : Fin grid2.N, _)

theorem idx_onto2 : ∀ q0 : Fin 20, ∃ t : Fin cfg2.N, win2_4.index t = ![q0.val, 0] :=
  (by decide +kernel : ∀ q0 : Fin 20, ∃ t : Fin grid2.N, win2_4.index t = ![q0.val, 0])

theorem flushed2 (V : (c : Dev nD) → (b : Ref sig .tc) → Buf (Elt Ideal) ((c : Thread nD τ).loc b)) (c : Dev nD) (t : Fin cfg2.N) :
    (dat2 V c).flushed 4 t = ((cfg2.win 4).blk t).view.read (Elt Ideal)
      (classLogProbs (V c main_v33) (V c main_v23) (V c main_v11) (V c main_arg5)) := by
  show (cfg2.win 4).cut (grid2.coords t) ((dat2 V c).after 4 t) = _
  rw [after2_4]
  unfold out2_4
  rw [View.canon_unit_zero hz2'']
  simp only [View.ld_unit_zero (S := S5000x40) hz2'', View.ld_unit_zero (S := S5000x1) hz2'', View.ld_unit_zero (S := S40) hz1'']
  obtain ⟨e00, e01, e10, e11, e20, e21, e30, e41, hle⟩ := idx_facts2 t
  funext j
  obtain ⟨p, k, rfl⟩ : ∃ (p : Fin 5000) (k : Fin 40), j = ix2 p k := ⟨j 0, j 1, eq_ix2 j⟩
  have hp : p.val < 5000 := p.isLt
  show k2_pay1 (iblk2 V c 2 t) (iblk2 V c 0 t) (iblk2 V c 1 t) (iblk2 V c 3 t) (ix2 p k)
    = classLogProbs (V c main_v33) (V c main_v23) (V c main_v11) (V c main_arg5) (((cfg2.win 4).blk t).view.emb (ix2 p k))
  refine ((pay2_apply _ _ _ _ p k).trans ?_).trans
    (classLogProbs_apply _ _ _ _ _ (⟨win2_4.index t (0 : Fin 2) * 5000 + p.val, by omega⟩ : Fin 100000) k
      (by show win2_4.index t (0 : Fin 2) * 5000 + 1 * p.val = win2_4.index t (0 : Fin 2) * 5000 + p.val; omega)
      (by show win2_4.index t (1 : Fin 2) * 40 + 1 * k.val = k.val; omega)).symm
  have r0 : ∀ q : Fin 40, iblk2 V c 0 t (ix2 p q)
      = V c main_v33 (ix2 (⟨win2_4.index t (0 : Fin 2) * 5000 + p.val, by omega⟩ : Fin 100000) q) := fun q => by
    show V c main_v33 (((cfg2.win 0).blk t).view.emb (ix2 p q)) = _
    refine congrArg (V c main_v33) (funext fun a => Fin.ext ?_)
    match a with
    | ⟨0, _⟩ => show win2_0.index t (0 : Fin 2) * 5000 + 1 * p.val = win2_4.index t (0 : Fin 2) * 5000 + p.val; omega
    | ⟨1, _⟩ => show win2_0.index t (1 : Fin 2) * 40 + 1 * q.val = q.val; omega
  have r1 : ∀ q : Fin 40, iblk2 V c 1 t (ix2 p q)
      = V c main_v23 (ix2 (⟨win2_4.index t (0 : Fin 2) * 5000 + p.val, by omega⟩ : Fin 100000) q) := fun q => by
    show V c main_v23 (((cfg2.win 1).blk t).view.emb (ix2 p q)) = _
    refine congrArg (V c main_v23) (funext fun a => Fin.ext ?_)
    match a with
    | ⟨0, _⟩ => show win2_1.index t (0 : Fin 2) * 5000 + 1 * p.val = win2_4.index t (0 : Fin 2) * 5000 + p.val; omega
    | ⟨1, _⟩ => show win2_1.index t (1 : Fin 2) * 40 + 1 * q.val = q.val; omega
  have r2 : iblk2 V c 2 t (ix2 p (0 : Fin 1))
      = V c main_v11 (ix2 (⟨win2_4.index t (0 : Fin 2) * 5000 + p.val, by omega⟩ : Fin 100000) (0 : Fin 1)) := by
    show V c main_v11 (((cfg2.win 2).blk t).view.emb (ix2 p (0 : Fin 1))) = _
    refine congrArg (V c main_v11) (funext fun a => Fin.ext ?_)
    match a with
    | ⟨0, _⟩ => show win2_2.index t (0 : Fin 2) * 5000 + 1 * p.val = win2_4.index t (0 : Fin 2) * 5000 + p.val; omega
    | ⟨1, _⟩ => show win2_2.index t (1 : Fin 2) * 1 + 1 * 0 = 0; omega
  have r3 : ∀ q : Fin 40, iblk2 V c 3 t (ix1 q) = V c main_arg5 (ix1 q) := fun q => by
    show V c main_arg5 (((cfg2.win 3).blk t).view.emb (ix1 q)) = _
    refine congrArg (V c main_arg5) (funext fun a => Fin.ext ?_)
    match a with
    | ⟨0, _⟩ => show win2_3.index t (0 : Fin 1) * 40 + 1 * q.val = q.val; omega
  refine congrArg (fun z => logSoftmaxRow z k) (funext fun q => ?_)
  unfold combinedRow
  rw [r0 q, r1 q, r2, r3 q]

theorem mem_blk2 (t : Fin cfg2.N) (i : S100000x40.Idx) :
    i ∈ ((cfg2.win 4).blk t).view.set ↔ ∀ a : Fin 2, win2_4.index t a * S5000x40.size a ≤ (i a).val ∧ (i a).val < win2_4.index t a * S5000x40.size a + S5000x40.size a := by
  show i ∈ ((View.whole main_v34).slice (win2_4.rect t)).set ↔ _
  rw [View.set_slice_whole, Rect.mem_set_unit]
  exact Iff.rfl

theorem cover2 (i : S100000x40.Idx) : ∃ t : Fin cfg2.N, (cfg2.win 4).flush t = true ∧ i ∈ ((cfg2.win 4).blk t).view.set := by
  have hi0 : (i 0).val < 100000 := (i 0).isLt
  have hi1 : (i 1).val < 40 := (i 1).isLt
  obtain ⟨t, ht⟩ := idx_onto2 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 40 ≤ (i 1).val ∧ (i 1).val < win2_4.index t (1 : Fin 2) * 40 + 40; omega

/-- AFTER THE THIRD CALL its output array holds the class log-probabilities of the arrays the call was entered with. -/
theorem final2 (V : (c : Dev nD) → (b : Ref sig .tc) → Buf (Elt Ideal) ((c : Thread nD τ).loc b)) (c : Dev nD) :
    (dat2 V c).arrAt 4 cfg2.N = classLogProbs (V c main_v33) (V c main_v23) (V c main_v11) (V c main_arg5) :=
  (dat2 V c).arrAt_eq_of_cover 4 _ (fun t _ => flushed2 V c t) cover2

end Cert.KernelIdeal.Layers

end
-- ==== Proof.KernelValue.lean ====
/-
  What the kernel program computes: its result array as one function of the six argument arrays.

  Between the calls the host reads the edge list's two columns, counts each node's incoming edges into the normalizer
  `d = (1 + indegree)^(-1/2)`, and — once per layer — gathers the scaled rows of every edge's source node and sums them onto
  the edge's target node.  Each host stretch is read from ANY contents it is entered with; each call's output array is its
  whole-array function (Transform, Hidden, LogProbs); a buffer that a segment does not write keeps its contents.  Chained from
  the launch to the return this gives `kernelValue`.
-/
import proofs.«154231_j56642028700327_2_alg».proof.Proof.Gen.KernelIdeal.Frame
import proofs.«154231_j56642028700327_2_alg».proof.Proof.Transform
import proofs.«154231_j56642028700327_2_alg».proof.Proof.Hidden
import proofs.«154231_j56642028700327_2_alg».proof.Proof.LogProbs
import Idealize.ShloMosaic.Lib.StableHlo.Run

set_option maxRecDepth 16384

noncomputable section

namespace Cert.KernelIdeal.Layers

open Cert.KernelIdeal Cert.KernelIdeal.Gen Idealize.ShloMosaic Idealize.ShloMosaic.TcCoe Idealize.SL.Sem
open Idealize.ShloMosaic.Pipeline (Dat Cfg Window)

/-! ## The host stretches as functions -/

/-- The edge list's source column. -/
def srcCol (e : (⟨S2x3200000, .i32⟩ : BufTy).Contents (Elt Ideal)) : (⟨S3200000, .i32⟩ : BufTy).Contents (Elt Ideal) :=
  shapeCast _ (extractStridedSlice S1x3200000 ![0, 0] e slices_S2x3200000_S1x3200000_0_0) shapeCasts_S1x3200000_S3200000
/-- The edge list's target column. -/
def dstCol (e : (⟨S2x3200000, .i32⟩ : BufTy).Contents (Elt Ideal)) : (⟨S3200000, .i32⟩ : BufTy).Contents (Elt Ideal) :=
  shapeCast _ (extractStridedSlice S1x3200000 ![1, 0] e slices_S2x3200000_S1x3200000_1_0) shapeCasts_S1x3200000_S3200000
/-- A column of node indices as scatter indices `[E, 1]`, as it stands. -/
def asSlots (v : (⟨S3200000, .i32⟩ : BufTy).Contents (Elt Ideal)) : (⟨S3200000x1, .i32⟩ : BufTy).Contents (Elt Ideal) :=
  broadcastInDim S3200000x1 ![0] bcast_S3200000_S3200000x1_0 v
/-- A column of node indices as gather indices `[E, 1]`: a negative index counts from the end. -/
def wrappedSlots (v : (⟨S3200000, .i32⟩ : BufTy).Contents (Elt Ideal)) : (⟨S3200000x1, .i32⟩ : BufTy).Contents (Elt Ideal) :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)
/-- The node normalizers `(1 + indegree)^(-1/2)`, as the column the calls read. -/
def normalizerCol (dst : (⟨S3200000, .i32⟩ : BufTy).Contents (Elt Ideal)) : (⟨S100000x1, .f32⟩ : BufTy).Contents (Elt Ideal) :=
  shapeCast _ (Host.rsqrt (F := Ideal) (addf (F := Ideal)
    (Host.scatterAdd (F := Ideal) scatter_S100000_S3200000x1_S3200000_n_0_0_1 (broadcastInDim S100000 ![] bcast_S_S100000 (constant (F := Ideal) S_ .f32 0x00000000#32))
      (asSlots dst) (broadcastInDim S3200000 ![] bcast_S_S3200000 (constant (F := Ideal) S_ .f32 0x3F800000#32)))
    (broadcastInDim S100000 ![] bcast_S_S100000 (constant (F := Ideal) S_ .f32 0x3F800000#32)))) shapeCasts_S100000_S100000x1
/-- The rows of the edges' source nodes summed onto the edges' target nodes, 16 features wide. -/
def neighbourSum16 (h : (⟨S100000x16, .f32⟩ : BufTy).Contents (Elt Ideal)) (src dst : (⟨S3200000, .i32⟩ : BufTy).Contents (Elt Ideal)) :
    (⟨S100000x16, .f32⟩ : BufTy).Contents (Elt Ideal) :=
  Host.scatterAdd (F := Ideal) scatter_S100000x16_S3200000x1_S3200000x16_1_0_0_1 (broadcastInDim S100000x16 ![] bcast_S_S100000x16 (constant (F := Ideal) S_ .f32 0x00000000#32))
    (asSlots dst) (Host.gather gather_S100000x16_S3200000x1_S3200000x16_1_0_n_n_0_1_116 h (wrappedSlots src))
/-- The same, 40 features wide. -/
def neighbourSum40 (h : (⟨S100000x40, .f32⟩ : BufTy).Contents (Elt Ideal)) (src dst : (⟨S3200000, .i32⟩ : BufTy).Contents (Elt Ideal)) :
    (⟨S100000x40, .f32⟩ : BufTy).Contents (Elt Ideal) :=
  Host.scatterAdd (F := Ideal) scatter_S100000x40_S3200000x1_S3200000x40_1_0_0_1 (broadcastInDim S100000x40 ![] bcast_S_S100000x40 (constant (F := Ideal) S_ .f32 0x00000000#32))
    (asSlots dst) (Host.gather gather_S100000x40_S3200000x1_S3200000x40_1_0_n_n_0_1_140 h (wrappedSlots src))

/-- THE KERNEL PROGRAM'S RESULT as one function of the argument arrays. -/
def kernelValue (x0 : (⟨S100000x256, .f32⟩ : BufTy).Contents (Elt Ideal)) (x1 : (⟨S2x3200000, .i32⟩ : BufTy).Contents (Elt Ideal))
    (x2 : (⟨S256x16, .f32⟩ : BufTy).Contents (Elt Ideal)) (x3 : (⟨S16, .f32⟩ : BufTy).Contents (Elt Ideal))
    (x4 : (⟨S16x40, .f32⟩ : BufTy).Contents (Elt Ideal)) (x5 : (⟨S40, .f32⟩ : BufTy).Contents (Elt Ideal)) :
    (⟨S100000x40, .f32⟩ : BufTy).Contents (Elt Ideal) :=
  classLogProbs
    (neighbourSum40 (hiddenTransform (neighbourSum16 (scaledTransform x0 x2 (normalizerCol (dstCol x1))) (srcCol x1) (dstCol x1))
        (scaledTransform x0 x2 (normalizerCol (dstCol x1))) (normalizerCol (dstCol x1)) x3 x4) (srcCol x1) (dstCol x1))
    (hiddenTransform (neighbourSum16 (scaledTransform x0 x2 (normalizerCol (dstCol x1))) (srcCol x1) (dstCol x1))
        (scaledTransform x0 x2 (normalizerCol (dstCol x1))) (normalizerCol (dstCol x1)) x3 x4)
    (normalizerCol (dstCol x1)) x5

/-! ## Each host stretch, from any contents it is entered with -/

set_option maxHeartbeats 4000000 in
set_option maxRecDepth 65536 in
theorem host0_v1 (V : Valuation τ sig (Elt Ideal)) : StableHlo.after (hostOps0 (F := Ideal)) V (Proc.devRef .tc main_v1) = srcCol (V (Proc.devRef .tc main_arg1)) := by
  after_results; rfl
set_option maxHeartbeats 4000000 in
set_option maxRecDepth 65536 in
theorem host0_v3 (V : Valuation τ sig (Elt Ideal)) : StableHlo.after (hostOps0 (F := Ideal)) V (Proc.devRef .tc main_v3) = dstCol (V (Proc.devRef .tc main_arg1)) := by
  after_results; rfl
set_option maxHeartbeats 4000000 in
set_option maxRecDepth 65536 in
theorem host0_v11 (V : Valuation τ sig (Elt Ideal)) : StableHlo.after (hostOps0 (F := Ideal)) V (Proc.devRef .tc main_v11) = normalizerCol (dstCol (V (Proc.devRef .tc main_arg1))) := by
  after_results; rfl
set_option maxHeartbeats 4000000 in
set_option maxRecDepth 65536 in
theorem host1_v22 (V : Valuation τ sig (Elt Ideal)) : StableHlo.after (hostOps1 (F := Ideal)) V (Proc.devRef .tc main_v22)
    = neighbourSum16 (V (Proc.devRef .tc main_v12)) (V (Proc.devRef .tc main_v1)) (V (Proc.devRef .tc main_v3)) := by
  after_results; rfl
set_option maxHeartbeats 4000000 in
set_option maxRecDepth 65536 in
theorem host2_v33 (V : Valuation τ sig (Elt Ideal)) : StableHlo.after (hostOps2 (F := Ideal)) V (Proc.devRef .tc main_v33)
    = neighbourSum40 (V (Proc.devRef .tc main_v23)) (V (Proc.devRef .tc main_v1)) (V (Proc.devRef .tc main_v3)) := by
  after_results; rfl

theorem keep0_arg0 (V : Valuation τ sig (Elt Ideal)) : StableHlo.after (hostOps0 (F := Ideal)) V (Proc.devRef .tc main_arg0) = V (Proc.devRef .tc main_arg0) := by
  after_results
theorem keep0_arg2 (V : Valuation τ sig (Elt Ideal)) : StableHlo.after (hostOps0 (F := Ideal)) V (Proc.devRef .tc main_arg2) = V (Proc.devRef .tc main_arg2) := by
  after_results
theorem keep0_arg3 (V : Valuation τ sig (Elt Ideal)) : StableHlo.after (hostOps0 (F := Ideal)) V (Proc.devRef .tc main_arg3) = V (Proc.devRef .tc main_arg3) := by
  after_results
theorem keep0_arg4 (V : Valuation τ sig (Elt Ideal)) : StableHlo.after (hostOps0 (F := Ideal)) V (Proc.devRef .tc main_arg4) = V (Proc.devRef .tc main_arg4) := by
  after_results
theorem keep0_arg5 (V : Valuation τ sig (Elt Ideal)) : StableHlo.after (hostOps0 (F := Ideal)) V (Proc.devRef .tc main_arg5) = V (Proc.devRef .tc main_arg5) := by
  after_results
theorem keep1_v1 (V : Valuation τ sig (Elt Ideal)) : StableHlo.after (hostOps1 (F := Ideal)) V (Proc.devRef .tc main_v1) = V (Proc.devRef .tc main_v1) := by
  after_results
theorem keep1_v3 (V : Valuation τ sig (Elt Ideal)) : StableHlo.after (hostOps1 (F := Ideal)) V (Proc.devRef .tc main_v3) = V (Proc.devRef .tc main_v3) := by
  after_results
theorem keep1_v11 (V : Valuation τ sig (Elt Ideal)) : StableHlo.after (hostOps1 (F := Ideal)) V (Proc.devRef .tc main_v11) = V (Proc.devRef .tc main_v11) := by
  after_results
theorem keep1_v12 (V : Valuation τ sig (Elt Ideal)) : StableHlo.after (hostOps1 (F := Ideal)) V (Proc.devRef .tc main_v12) = V (Proc.devRef .tc main_v12) := by
  after_results
theorem keep1_arg3 (V : Valuation τ sig (Elt Ideal)) : StableHlo.after (hostOps1 (F := Ideal)) V (Proc.devRef .tc main_arg3) = V (Proc.devRef .tc main_arg3) := by
  after_results
theorem keep1_arg4 (V : Valuation τ sig (Elt Ideal)) : StableHlo.after (hostOps1 (F := Ideal)) V (Proc.devRef .tc main_arg4) = V (Proc.devRef .tc main_arg4) := by
  after_results
theorem keep1_arg5 (V : Valuation τ sig (Elt Ideal)) : StableHlo.after (hostOps1 (F := Ideal)) V (Proc.devRef .tc main_arg5) = V (Proc.devRef .tc main_arg5) := by
  after_results
theorem keep2_v11 (V : Valuation τ sig (Elt Ideal)) : StableHlo.after (hostOps2 (F := Ideal)) V (Proc.devRef .tc main_v11) = V (Proc.devRef .tc main_v11) := by
  after_results
theorem keep2_v23 (V : Valuation τ sig (Elt Ideal)) : StableHlo.after (hostOps2 (F := Ideal)) V (Proc.devRef .tc main_v23) = V (Proc.devRef .tc main_v23) := by
  after_results
theorem keep2_arg5 (V : Valuation τ sig (Elt Ideal)) : StableHlo.after (hostOps2 (F := Ideal)) V (Proc.devRef .tc main_arg5) = V (Proc.devRef .tc main_arg5) := by
  after_results

/-! ## From the launch to the return -/

variable (m : (ℓ : Loc nD τ sig) → Buf (Elt Ideal) ℓ) (ρ : Dev nD → PrngReg)

/-- THE RESULT BUFFER AT THE LAST SEGMENT BOUNDARY is `kernelValue` of the argument arrays as launched. -/
theorem boundary_value (c : Dev nD) :
    W6 m ρ c (Proc.devRef .tc main_v34)
      = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the launch contents
  have l0 : W0 m ρ c (Proc.devRef .tc main_arg0) = (m ((c : Thread nD τ).loc main_arg0)) := rfl
  have l1 : W0 m ρ c (Proc.devRef .tc main_arg1) = (m ((c : Thread nD τ).loc main_arg1)) := rfl
  have l2 : W0 m ρ c (Proc.devRef .tc main_arg2) = (m ((c : Thread nD τ).loc main_arg2)) := rfl
  have l3 : W0 m ρ c (Proc.devRef .tc main_arg3) = (m ((c : Thread nD τ).loc main_arg3)) := rfl
  have l4 : W0 m ρ c (Proc.devRef .tc main_arg4) = (m ((c : Thread nD τ).loc main_arg4)) := rfl
  have l5 : W0 m ρ c (Proc.devRef .tc main_arg5) = (m ((c : Thread nD τ).loc main_arg5)) := rfl
  -- after the first host stretch: the edge list's columns and the normalizers
  have a_v1 : W1 m ρ c (Proc.devRef .tc main_v1) = (srcCol (m ((c : Thread nD τ).loc main_arg1))) := (host0_v1 (W0 m ρ c)).trans (by rw [l1])
  have a_v3 : W1 m ρ c (Proc.devRef .tc main_v3) = (dstCol (m ((c : Thread nD τ).loc main_arg1))) := (host0_v3 (W0 m ρ c)).trans (by rw [l1])
  have a_v11 : W1 m ρ c (Proc.devRef .tc main_v11) = (normalizerCol (dstCol (m ((c : Thread nD τ).loc main_arg1)))) := (host0_v11 (W0 m ρ c)).trans (by rw [l1])
  have a_arg0 : W1 m ρ c (Proc.devRef .tc main_arg0) = (m ((c : Thread nD τ).loc main_arg0)) := (keep0_arg0 (W0 m ρ c)).trans l0
  have a_arg2 : W1 m ρ c (Proc.devRef .tc main_arg2) = (m ((c : Thread nD τ).loc main_arg2)) := (keep0_arg2 (W0 m ρ c)).trans l2
  have a_arg3 : W1 m ρ c (Proc.devRef .tc main_arg3) = (m ((c : Thread nD τ).loc main_arg3)) := (keep0_arg3 (W0 m ρ c)).trans l3
  have a_arg4 : W1 m ρ c (Proc.devRef .tc main_arg4) = (m ((c : Thread nD τ).loc main_arg4)) := (keep0_arg4 (W0 m ρ c)).trans l4
  have a_arg5 : W1 m ρ c (Proc.devRef .tc main_arg5) = (m ((c : Thread nD τ).loc main_arg5)) := (keep0_arg5 (W0 m ρ c)).trans l5
  -- after the first call: the scaled transformed features
  have b_v12 : W2 m ρ c (Proc.devRef .tc main_v12) = (scaledTransform (m ((c : Thread nD τ).loc main_arg0)) (m ((c : Thread nD τ).loc main_arg2)) (normalizerCol (dstCol (m ((c : Thread nD τ).loc main_arg1))))) := by
    refine (W2_arr m ρ c 3).trans ((final0 (V1 m ρ) c).trans ?_)
    show scaledTransform (W1 m ρ c (Proc.devRef .tc main_arg0)) (W1 m ρ c (Proc.devRef .tc main_arg2)) (W1 m ρ c (Proc.devRef .tc main_v11)) = _
    rw [a_arg0, a_arg2, a_v11]
  have b_v11 : W2 m ρ c (Proc.devRef .tc main_v11) = (normalizerCol (dstCol (m ((c : Thread nD τ).loc main_arg1)))) :=
    ((W2_arr m ρ c 2).trans (((dat0 (V1 m ρ) c).arrAt_in 2 rfl _).trans (A_eq0 (V1 m ρ) c 2))).trans a_v11
  have b_v1 : W2 m ρ c (Proc.devRef .tc main_v1) = (srcCol (m ((c : Thread nD τ).loc main_arg1))) := (W2_of_ne m ρ c main_v1 (by decide)).trans a_v1
  have b_v3 : W2 m ρ c (Proc.devRef .tc main_v3) = (dstCol (m ((c : Thread nD τ).loc main_arg1))) := (W2_of_ne m ρ c main_v3 (by decide)).trans a_v3
  have b_arg3 : W2 m ρ c (Proc.devRef .tc main_arg3) = (m ((c : Thread nD τ).loc main_arg3)) := (W2_of_ne m ρ c main_arg3 (by decide)).trans a_arg3
  have b_arg4 : W2 m ρ c (Proc.devRef .tc main_arg4) = (m ((c : Thread nD τ).loc main_arg4)) := (W2_of_ne m ρ c main_arg4 (by decide)).trans a_arg4
  have b_arg5 : W2 m ρ c (Proc.devRef .tc main_arg5) = (m ((c : Thread nD τ).loc main_arg5)) := (W2_of_ne m ρ c main_arg5 (by decide)).trans a_arg5
  -- after the second host stretch: the first layer's neighbour sums
  have c_v22 : W3 m ρ c (Proc.devRef .tc main_v22) = (neighbourSum16 (scaledTransform (m ((c : Thread nD τ).loc main_arg0)) (m ((c : Thread nD τ).loc main_arg2)) (normalizerCol (dstCol (m ((c : Thread nD τ).loc main_arg1))))) (srcCol (m ((c : Thread nD τ).loc main_arg1))) (dstCol (m ((c : Thread nD τ).loc main_arg1)))) := (host1_v22 (W2 m ρ c)).trans (by rw [b_v12, b_v1, b_v3])
  have c_v12 : W3 m ρ c (Proc.devRef .tc main_v12) = (scaledTransform (m ((c : Thread nD τ).loc main_arg0)) (m ((c : Thread nD τ).loc main_arg2)) (normalizerCol (dstCol (m ((c : Thread nD τ).loc main_arg1))))) := (keep1_v12 (W2 m ρ c)).trans b_v12
  have c_v11 : W3 m ρ c (Proc.devRef .tc main_v11) = (normalizerCol (dstCol (m ((c : Thread nD τ).loc main_arg1)))) := (keep1_v11 (W2 m ρ c)).trans b_v11
  have c_v1 : W3 m ρ c (Proc.devRef .tc main_v1) = (srcCol (m ((c : Thread nD τ).loc main_arg1))) := (keep1_v1 (W2 m ρ c)).trans b_v1
  have c_v3 : W3 m ρ c (Proc.devRef .tc main_v3) = (dstCol (m ((c : Thread nD τ).loc main_arg1))) := (keep1_v3 (W2 m ρ c)).trans b_v3
  have c_arg3 : W3 m ρ c (Proc.devRef .tc main_arg3) = (m ((c : Thread nD τ).loc main_arg3)) := (keep1_arg3 (W2 m ρ c)).trans b_arg3
  have c_arg4 : W3 m ρ c (Proc.devRef .tc main_arg4) = (m ((c : Thread nD τ).loc main_arg4)) := (keep1_arg4 (W2 m ρ c)).trans b_arg4
  have c_arg5 : W3 m ρ c (Proc.devRef .tc main_arg5) = (m ((c : Thread nD τ).loc main_arg5)) := (keep1_arg5 (W2 m ρ c)).trans b_arg5
  -- after the second call: the hidden layer transformed and scaled
  have d_v23 : W4 m ρ c (Proc.devRef .tc main_v23) = (hiddenTransform (neighbourSum16 (scaledTransform (m ((c : Thread nD τ).loc main_arg0)) (m ((c : Thread nD τ).loc main_arg2)) (normalizerCol (dstCol (m ((c : Thread nD τ).loc main_arg1))))) (srcCol (m ((c : Thread nD τ).loc main_arg1))) (dstCol (m ((c : Thread nD τ).loc main_arg1)))) (scaledTransform (m ((c : Thread nD τ).loc main_arg0)) (m ((c : Thread nD τ).loc main_arg2)) (normalizerCol (dstCol (m ((c : Thread nD τ).loc main_arg1))))) (normalizerCol (dstCol (m ((c : Thread nD τ).loc main_arg1)))) (m ((c : Thread nD τ).loc main_arg3)) (m ((c : Thread nD τ).loc main_arg4))) := by
    refine (W4_arr m ρ c 5).trans ((final1 (V3 m ρ) c).trans ?_)
    show hiddenTransform (W3 m ρ c (Proc.devRef .tc main_v22)) (W3 m ρ c (Proc.devRef .tc main_v12)) (W3 m ρ c (Proc.devRef .tc main_v11)) (W3 m ρ c (Proc.devRef .tc main_arg3)) (W3 m ρ c (Proc.devRef .tc main_arg4)) = _
    rw [c_v22, c_v12, c_v11, c_arg3, c_arg4]
  have d_v11 : W4 m ρ c (Proc.devRef .tc main_v11) = (normalizerCol (dstCol (m ((c : Thread nD τ).loc main_arg1)))) :=
    ((W4_arr m ρ c 2).trans (((dat1 (V3 m ρ) c).arrAt_in 2 rfl _).trans (A_eq1 (V3 m ρ) c 2))).trans c_v11
  have d_v1 : W4 m ρ c (Proc.devRef .tc main_v1) = (srcCol (m ((c : Thread nD τ).loc main_arg1))) := (W4_of_ne m ρ c main_v1 (by decide)).trans c_v1
  have d_v3 : W4 m ρ c (Proc.devRef .tc main_v3) = (dstCol (m ((c : Thread nD τ).loc main_arg1))) := (W4_of_ne m ρ c main_v3 (by decide)).trans c_v3
  have d_arg5 : W4 m ρ c (Proc.devRef .tc main_arg5) = (m ((c : Thread nD τ).loc main_arg5)) := (W4_of_ne m ρ c main_arg5 (by decide)).trans c_arg5
  -- after the third host stretch: the second layer's neighbour sums
  have e_v33 : W5 m ρ c (Proc.devRef .tc main_v33) = (neighbourSum40 (hiddenTransform (neighbourSum16 (scaledTransform (m ((c : Thread nD τ).loc main_arg0)) (m ((c : Thread nD τ).loc main_arg2)) (normalizerCol (dstCol (m ((c : Thread nD τ).loc main_arg1))))) (srcCol (m ((c : Thread nD τ).loc main_arg1))) (dstCol (m ((c : Thread nD τ).loc main_arg1)))) (scaledTransform (m ((c : Thread nD τ).loc main_arg0)) (m ((c : Thread nD τ).loc main_arg2)) (normalizerCol (dstCol (m ((c : Thread nD τ).loc main_arg1))))) (normalizerCol (dstCol (m ((c : Thread nD τ).loc main_arg1)))) (m ((c : Thread nD τ).loc main_arg3)) (m ((c : Thread nD τ).loc main_arg4))) (srcCol (m ((c : Thread nD τ).loc main_arg1))) (dstCol (m ((c : Thread nD τ).loc main_arg1)))) := (host2_v33 (W4 m ρ c)).trans (by rw [d_v23, d_v1, d_v3])
  have e_v23 : W5 m ρ c (Proc.devRef .tc main_v23) = (hiddenTransform (neighbourSum16 (scaledTransform (m ((c : Thread nD τ).loc main_arg0)) (m ((c : Thread nD τ).loc main_arg2)) (normalizerCol (dstCol (m ((c : Thread nD τ).loc main_arg1))))) (srcCol (m ((c : Thread nD τ).loc main_arg1))) (dstCol (m ((c : Thread nD τ).loc main_arg1)))) (scaledTransform (m ((c : Thread nD τ).loc main_arg0)) (m ((c : Thread nD τ).loc main_arg2)) (normalizerCol (dstCol (m ((c : Thread nD τ).loc main_arg1))))) (normalizerCol (dstCol (m ((c : Thread nD τ).loc main_arg1)))) (m ((c : Thread nD τ).loc main_arg3)) (m ((c : Thread nD τ).loc main_arg4))) := (keep2_v23 (W4 m ρ c)).trans d_v23
  have e_v11 : W5 m ρ c (Proc.devRef .tc main_v11) = (normalizerCol (dstCol (m ((c : Thread nD τ).loc main_arg1)))) := (keep2_v11 (W4 m ρ c)).trans d_v11
  have e_arg5 : W5 m ρ c (Proc.devRef .tc main_arg5) = (m ((c : Thread nD τ).loc main_arg5)) := (keep2_arg5 (W4 m ρ c)).trans d_arg5
  -- after the third call: the class log-probabilities
  refine (W6_arr m ρ c 4).trans ((final2 (V5 m ρ) c).trans ?_)
  show classLogProbs (W5 m ρ c (Proc.devRef .tc main_v33)) (W5 m ρ c (Proc.devRef .tc main_v23)) (W5 m ρ c (Proc.devRef .tc main_v11)) (W5 m ρ c (Proc.devRef .tc main_arg5)) = _
  rw [e_v33, e_v23, e_v11, e_arg5]
  rfl

end Cert.KernelIdeal.Layers

end
-- ==== Proof.ReferenceRun.lean ====
/-
  The reference's run, read back in six stages.

  The reference is a straight line of 100 host operations, so every weakly fair execution ends with each buffer at the fold of
  the operations' results over the launch contents.  That fold is read here stage by stage, each stage from ANY contents it is
  entered with, against the operation-by-operation stage functions: (A) the source and target columns of the edge list and the
  node normalizers `(1 + indegree)^(-1/2)`; (B) the per-edge weights and the self-loop weights; (C) the first layer,
  transformed, aggregated over the edges and biased; (D) its positive part, transformed again; (E) the second layer aggregated
  and biased; (F) the row-wise log-softmax.  The stages are then chained: what one stage leaves is what the next is entered with,
  and a buffer a stage does not write keeps its contents.
-/
import proofs.«154231_j56642028700327_2_alg».proof.Proof.RefRead
import Idealize.ShloMosaic.Lib.StableHlo.Run
import Idealize.ShloMosaic.Lib.Pipeline.Frame

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Operations 0–13 of @main. -/
abbrev stageA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_cst (constant S_ .f32 0x3F800000#32),
    unary main_cst main_v4 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S3200000x1 ![0] bcast_S3200000_S3200000x1_0 : (⟨S3200000, .i32⟩ : BufTy).Contents (Elt F) → (⟨S3200000x1, .i32⟩ : BufTy).Contents (Elt F)),
    ternary main_v5 main_v6 main_v4 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)) ]

/-- Operations 14–33 of @main. -/
abbrev stageB : List (HloOp τ sig (Elt F)) :=
  [ nullary main_c (constantI S_ 32 0#32),
    unary main_c main_v11 (broadcastInDim S3200000 ![] bcast_S_S3200000 : (⟨S_, .i32⟩ : BufTy).Contents (Elt F) → (⟨S3200000, .i32⟩ : BufTy).Contents (Elt F)),
    binary main_v1 main_v11 main_v12 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v13 (broadcastInDim S3200000 ![] bcast_S_S3200000 : (⟨S_, .i32⟩ : BufTy).Contents (Elt F) → (⟨S3200000, .i32⟩ : BufTy).Contents (Elt F)),
    binary main_v1 main_v13 main_v14 (addi : (⟨S3200000, .i32⟩ : BufTy).Contents (Elt F) → (⟨S3200000, .i32⟩ : BufTy).Contents (Elt F) → (⟨S3200000, .i32⟩ : BufTy).Contents (Elt F)),
    ternary main_v12 main_v14 main_v1 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v15 main_v16 (broadcastInDim S3200000x1 ![0] bcast_S3200000_S3200000x1_0 : (⟨S3200000, .i32⟩ : BufTy).Contents (Elt F) → (⟨S3200000x1, .i32⟩ : BufTy).Contents (Elt F)),
    binary main_v10 main_v16 main_v17 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_3 (constantI S_ 32 0#32),
    unary main_c_3 main_v18 (broadcastInDim S3200000 ![] bcast_S_S3200000 : (⟨S_, .i32⟩ : BufTy).Contents (Elt F) → (⟨S3200000, .i32⟩ : BufTy).Contents (Elt F)),
    binary main_v3 main_v18 main_v19 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v20 (broadcastInDim S3200000 ![] bcast_S_S3200000 : (⟨S_, .i32⟩ : BufTy).Contents (Elt F) → (⟨S3200000, .i32⟩ : BufTy).Contents (Elt F)),
    binary main_v3 main_v20 main_v21 (addi : (⟨S3200000, .i32⟩ : BufTy).Contents (Elt F) → (⟨S3200000, .i32⟩ : BufTy).Contents (Elt F) → (⟨S3200000, .i32⟩ : BufTy).Contents (Elt F)),
    ternary main_v19 main_v21 main_v3 main_v22 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v22 main_v23 (broadcastInDim S3200000x1 ![0] bcast_S3200000_S3200000x1_0 : (⟨S3200000, .i32⟩ : BufTy).Contents (Elt F) → (⟨S3200000x1, .i32⟩ : BufTy).Contents (Elt F)),
    binary main_v10 main_v23 main_v24 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v17 main_v24 main_v25 (mulf : (⟨S3200000, .f32⟩ : BufTy).Contents (Elt F) → (⟨S3200000, .f32⟩ : BufTy).Contents (Elt F) → (⟨S3200000, .f32⟩ : BufTy).Contents (Elt F)),
    binary main_v10 main_v10 main_v26 (mulf : (⟨S100000, .f32⟩ : BufTy).Contents (Elt F) → (⟨S100000, .f32⟩ : BufTy).Contents (Elt F) → (⟨S100000, .f32⟩ : BufTy).Contents (Elt F)) ]

/-- Operations 34–57 of @main. -/
abbrev stageC : List (HloOp τ sig (Elt F)) :=
  [ binary main_arg0 main_arg2 main_v27 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    nullary main_c_5 (constantI S_ 32 0#32),
    unary main_c_5 main_v28 (broadcastInDim S3200000 ![] bcast_S_S3200000 : (⟨S_, .i32⟩ : BufTy).Contents (Elt F) → (⟨S3200000, .i32⟩ : BufTy).Contents (Elt F)),
    binary main_v1 main_v28 main_v29 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 100000#32),
    unary main_c_6 main_v30 (broadcastInDim S3200000 ![] bcast_S_S3200000 : (⟨S_, .i32⟩ : BufTy).Contents (Elt F) → (⟨S3200000, .i32⟩ : BufTy).Contents (Elt F)),
    binary main_v1 main_v30 main_v31 (addi : (⟨S3200000, .i32⟩ : BufTy).Contents (Elt F) → (⟨S3200000, .i32⟩ : BufTy).Contents (Elt F) → (⟨S3200000, .i32⟩ : BufTy).Contents (Elt F)),
    ternary main_v29 main_v31 main_v1 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v32 main_v33 (broadcastInDim S3200000x1 ![0] bcast_S3200000_S3200000x1_0 : (⟨S3200000, .i32⟩ : BufTy).Contents (Elt F) → (⟨S3200000x1, .i32⟩ : BufTy).Contents (Elt F)),
    binary main_v27 main_v33 main_v34 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v25 main_v35 (broadcastInDim S3200000x1 ![0] bcast_S3200000_S3200000x1_0 : (⟨S3200000, .f32⟩ : BufTy).Contents (Elt F) → (⟨S3200000x1, .f32⟩ : BufTy).Contents (Elt F)),
    unary main_v35 main_v36 (broadcastInDim S3200000x16 ![0, 1] bcast_S3200000x1_S3200000x16_0_1 : (⟨S3200000x1, .f32⟩ : BufTy).Contents (Elt F) → (⟨S3200000x16, .f32⟩ : BufTy).Contents (Elt F)),
    binary main_v34 main_v36 main_v37 (mulf : (⟨S3200000x16, .f32⟩ : BufTy).Contents (Elt F) → (⟨S3200000x16, .f32⟩ : BufTy).Contents (Elt F) → (⟨S3200000x16, .f32⟩ : BufTy).Contents (Elt F)),
    nullary main_cst_7 (constant S_ .f32 0x00000000#32),
    unary main_cst_7 main_v38 (broadcastInDim S100000x16 ![] bcast_S_S100000x16 : (⟨S_, .f32⟩ : BufTy).Contents (Elt F) → (⟨S100000x16, .f32⟩ : BufTy).Contents (Elt F)),
    unary main_v3 main_v39 (broadcastInDim S3200000x1 ![0] bcast_S3200000_S3200000x1_0 : (⟨S3200000, .i32⟩ : BufTy).Contents (Elt F) → (⟨S3200000x1, .i32⟩ : BufTy).Contents (Elt F)),
    ternary main_v38 main_v39 main_v37 main_v40 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    unary main_v26 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x16 ![0, 1] bcast_S100000x1_S100000x16_0_1 : (⟨S100000x1, .f32⟩ : BufTy).Contents (Elt F) → (⟨S100000x16, .f32⟩ : BufTy).Contents (Elt F)),
    binary main_v27 main_v42 main_v43 (mulf : (⟨S100000x16, .f32⟩ : BufTy).Contents (Elt F) → (⟨S100000x16, .f32⟩ : BufTy).Contents (Elt F) → (⟨S100000x16, .f32⟩ : BufTy).Contents (Elt F)),
    binary main_v40 main_v43 main_v44 (addf : (⟨S100000x16, .f32⟩ : BufTy).Contents (Elt F) → (⟨S100000x16, .f32⟩ : BufTy).Contents (Elt F) → (⟨S100000x16, .f32⟩ : BufTy).Contents (Elt F)),
    unary main_arg3 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)) ]

/-- Operations 58–61 of @main. -/
abbrev stageD : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v47) (TRef.of (T := ⟨S100000x16, .f32⟩) main_call0_v0) (TRef.of (T := ⟨S100000x16, .f32⟩) main_v48) maximumf,
    binary main_v48 main_arg4 main_v49 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- Operations 62–84 of @main. -/
abbrev stageE : List (HloOp τ sig (Elt F)) :=
  [ nullary main_c_8 (constantI S_ 32 0#32),
    unary main_c_8 main_v50 (broadcastInDim S3200000 ![] bcast_S_S3200000 : (⟨S_, .i32⟩ : BufTy).Contents (Elt F) → (⟨S3200000, .i32⟩ : BufTy).Contents (Elt F)),
    binary main_v1 main_v50 main_v51 (cmpi .slt : (⟨S3200000, .i32⟩ : BufTy).Contents (Elt F) → (⟨S3200000, .i32⟩ : BufTy).Contents (Elt F) → (⟨S3200000, .i1⟩ : BufTy).Contents (Elt F)),
    nullary main_c_9 (constantI S_ 32 100000#32),
    unary main_c_9 main_v52 (broadcastInDim S3200000 ![] bcast_S_S3200000 : (⟨S_, .i32⟩ : BufTy).Contents (Elt F) → (⟨S3200000, .i32⟩ : BufTy).Contents (Elt F)),
    binary main_v1 main_v52 main_v53 (addi : (⟨S3200000, .i32⟩ : BufTy).Contents (Elt F) → (⟨S3200000, .i32⟩ : BufTy).Contents (Elt F) → (⟨S3200000, .i32⟩ : BufTy).Contents (Elt F)),
    ternary main_v51 main_v53 main_v1 main_v54 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v54 main_v55 (broadcastInDim S3200000x1 ![0] bcast_S3200000_S3200000x1_0 : (⟨S3200000, .i32⟩ : BufTy).Contents (Elt F) → (⟨S3200000x1, .i32⟩ : BufTy).Contents (Elt F)),
    binary main_v49 main_v55 main_v56 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    unary main_v25 main_v57 (broadcastInDim S3200000x1 ![0] bcast_S3200000_S3200000x1_0 : (⟨S3200000, .f32⟩ : BufTy).Contents (Elt F) → (⟨S3200000x1, .f32⟩ : BufTy).Contents (Elt F)),
    unary main_v57 main_v58 (broadcastInDim S3200000x40 ![0, 1] bcast_S3200000x1_S3200000x40_0_1 : (⟨S3200000x1, .f32⟩ : BufTy).Contents (Elt F) → (⟨S3200000x40, .f32⟩ : BufTy).Contents (Elt F)),
    binary main_v56 main_v58 main_v59 (mulf : (⟨S3200000x40, .f32⟩ : BufTy).Contents (Elt F) → (⟨S3200000x40, .f32⟩ : BufTy).Contents (Elt F) → (⟨S3200000x40, .f32⟩ : BufTy).Contents (Elt F)),
    nullary main_cst_10 (constant S_ .f32 0x00000000#32),
    unary main_cst_10 main_v60 (broadcastInDim S100000x40 ![] bcast_S_S100000x40 : (⟨S_, .f32⟩ : BufTy).Contents (Elt F) → (⟨S100000x40, .f32⟩ : BufTy).Contents (Elt F)),
    unary main_v3 main_v61 (broadcastInDim S3200000x1 ![0] bcast_S3200000_S3200000x1_0 : (⟨S3200000, .i32⟩ : BufTy).Contents (Elt F) → (⟨S3200000x1, .i32⟩ : BufTy).Contents (Elt F)),
    ternary main_v60 main_v61 main_v59 main_v62 ((fun x i u => Host.scatterAdd scatter_S100000x40_S3200000x1_S3200000x40_1_0_0_1 x i u) : (⟨S100000x40, .f32⟩ : BufTy).Contents (Elt F) → (⟨S3200000x1, .i32⟩ : BufTy).Contents (Elt F) → (⟨S3200000x40, .f32⟩ : BufTy).Contents (Elt F) → (⟨S100000x40, .f32⟩ : BufTy).Contents (Elt F)),
    unary main_v26 main_v63 (broadcastInDim S100000x1 ![0] bcast_S100000_S100000x1_0 : (⟨S100000, .f32⟩ : BufTy).Contents (Elt F) → (⟨S100000x1, .f32⟩ : BufTy).Contents (Elt F)),
    unary main_v63 main_v64 (broadcastInDim S100000x40 ![0, 1] bcast_S100000x1_S100000x40_0_1 : (⟨S100000x1, .f32⟩ : BufTy).Contents (Elt F) → (⟨S100000x40, .f32⟩ : BufTy).Contents (Elt F)),
    binary main_v49 main_v64 main_v65 (mulf : (⟨S100000x40, .f32⟩ : BufTy).Contents (Elt F) → (⟨S100000x40, .f32⟩ : BufTy).Contents (Elt F) → (⟨S100000x40, .f32⟩ : BufTy).Contents (Elt F)),
    binary main_v62 main_v65 main_v66 (addf : (⟨S100000x40, .f32⟩ : BufTy).Contents (Elt F) → (⟨S100000x40, .f32⟩ : BufTy).Contents (Elt F) → (⟨S100000x40, .f32⟩ : BufTy).Contents (Elt F)),
    unary main_arg5 main_v67 (broadcastInDim S1x40 ![1] bcast_S40_S1x40_1 : (⟨S40, .f32⟩ : BufTy).Contents (Elt F) → (⟨S1x40, .f32⟩ : BufTy).Contents (Elt F)),
    unary main_v67 main_v68 (broadcastInDim S100000x40 ![0, 1] bcast_S1x40_S100000x40_0_1 : (⟨S1x40, .f32⟩ : BufTy).Contents (Elt F) → (⟨S100000x40, .f32⟩ : BufTy).Contents (Elt F)),
    binary main_v66 main_v68 main_v69 (addf : (⟨S100000x40, .f32⟩ : BufTy).Contents (Elt F) → (⟨S100000x40, .f32⟩ : BufTy).Contents (Elt F) → (⟨S100000x40, .f32⟩ : BufTy).Contents (Elt F)) ]

/-- Operations 85–99 of @main. -/
abbrev stageF : List (HloOp τ sig (Elt F)) :=
  [ TRef.nullary (TRef.of (T := ⟨S_, .f32⟩) main_call1_cst) (constant S_ .f32 0xFF800000#32),
    TRef.binary (TRef.of (T := ⟨S100000x40, .f32⟩) main_v69) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v69) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v70) subf ]

/-- @main's operations are the six stages in order. -/
theorem ops_eq_stages : (ops (F := F)) = stageA ++ (stageB ++ (stageC ++ (stageD ++ (stageE ++ stageF)))) := rfl

/-- Contents carried to a typed reference's buffer and back are the contents (a called function's values are kept in
    typed references; no table of buffer types has to be looked up for this). -/
theorem ofBuf_toBuf {T : BufTy} (x : TRef sig T) (v : T.Contents (Elt F)) : x.ofBuf (x.toBuf v) = v := by
  obtain ⟨r, h, d, u⟩ := x
  subst h
  rfl

/-! ## What each stage computes, from any contents it is entered with -/

theorem stageA_v1 (V : Valuation τ sig (Elt F)) : after (stageA (F := F)) V (Proc.devRef .tc main_v1) = val_main_v1 (V (Proc.devRef .tc main_arg1)) := by
  after_results; rfl
theorem stageA_v3 (V : Valuation τ sig (Elt F)) : after (stageA (F := F)) V (Proc.devRef .tc main_v3) = val_main_v3 (V (Proc.devRef .tc main_arg1)) := by
  after_results; rfl
theorem stageA_v10 (V : Valuation τ sig (Elt F)) : after (stageA (F := F)) V (Proc.devRef .tc main_v10) = val_main_v10 (V (Proc.devRef .tc main_arg1)) := by
  after_results; rfl

set_option maxHeartbeats 8000000 in
set_option maxRecDepth 65536 in
theorem stageB_v25 (V : Valuation τ sig (Elt F)) (x1 : (⟨S2x3200000, .i32⟩ : BufTy).Contents (Elt F))
    (h1 : V (Proc.devRef .tc main_v1) = val_main_v1 x1) (h3 : V (Proc.devRef .tc main_v3) = val_main_v3 x1) (h10 : V (Proc.devRef .tc main_v10) = val_main_v10 x1) :
    after (stageB (F := F)) V (Proc.devRef .tc main_v25) = val_main_v25 x1 := by
  after_results_simp; rw [h1, h3, h10]; rfl
set_option maxHeartbeats 8000000 in
set_option maxRecDepth 65536 in
theorem stageB_v26 (V : Valuation τ sig (Elt F)) (x1 : (⟨S2x3200000, .i32⟩ : BufTy).Contents (Elt F)) (h10 : V (Proc.devRef .tc main_v10) = val_main_v10 x1) :
    after (stageB (F := F)) V (Proc.devRef .tc main_v26) = val_main_v26 x1 := by
  after_results_simp; rw [h10]; rfl

set_option maxHeartbeats 8000000 in
set_option maxRecDepth 65536 in
theorem stageC_v47 (V : Valuation τ sig (Elt F)) (x0 : (⟨S100000x256, .f32⟩ : BufTy).Contents (Elt F)) (x1 : (⟨S2x3200000, .i32⟩ : BufTy).Contents (Elt F)) (x2 : (⟨S256x16, .f32⟩ : BufTy).Contents (Elt F)) (x3 : (⟨S16, .f32⟩ : BufTy).Contents (Elt F))
    (a0 : V (Proc.devRef .tc main_arg0) = x0) (a2 : V (Proc.devRef .tc main_arg2) = x2) (a3 : V (Proc.devRef .tc main_arg3) = x3)
    (h1 : V (Proc.devRef .tc main_v1) = val_main_v1 x1) (h3 : V (Proc.devRef .tc main_v3) = val_main_v3 x1)
    (h25 : V (Proc.devRef .tc main_v25) = val_main_v25 x1) (h26 : V (Proc.devRef .tc main_v26) = val_main_v26 x1) :
    after (stageC (F := F)) V (Proc.devRef .tc main_v47) = val_main_v47 x0 x1 x2 x3 := by
  after_results_simp; rw [a0, a2, a3, h1, h3, h25, h26]; rfl

set_option maxHeartbeats 8000000 in
set_option maxRecDepth 65536 in
theorem stageD_v49 (V : Valuation τ sig (Elt F)) (x0 : (⟨S100000x256, .f32⟩ : BufTy).Contents (Elt F)) (x1 : (⟨S2x3200000, .i32⟩ : BufTy).Contents (Elt F)) (x2 : (⟨S256x16, .f32⟩ : BufTy).Contents (Elt F)) (x3 : (⟨S16, .f32⟩ : BufTy).Contents (Elt F)) (x4 : (⟨S16x40, .f32⟩ : BufTy).Contents (Elt F))
    (a4 : V (Proc.devRef .tc main_arg4) = x4) (h47 : V (Proc.devRef .tc main_v47) = val_main_v47 x0 x1 x2 x3) :
    after (stageD (F := F)) V (Proc.devRef .tc main_v49) = val_main_v49 x0 x1 x2 x3 x4 := by
  after_results_simp; rw [a4, h47]
  simp only [ofBuf_toBuf]
  rfl

set_option maxHeartbeats 8000000 in
set_option maxRecDepth 65536 in
theorem stageE_v69 (V : Valuation τ sig (Elt F)) (x0 : (⟨S100000x256, .f32⟩ : BufTy).Contents (Elt F)) (x1 : (⟨S2x3200000, .i32⟩ : BufTy).Contents (Elt F)) (x2 : (⟨S256x16, .f32⟩ : BufTy).Contents (Elt F)) (x3 : (⟨S16, .f32⟩ : BufTy).Contents (Elt F)) (x4 : (⟨S16x40, .f32⟩ : BufTy).Contents (Elt F)) (x5 : (⟨S40, .f32⟩ : BufTy).Contents (Elt F))
    (a5 : V (Proc.devRef .tc main_arg5) = x5) (h49 : V (Proc.devRef .tc main_v49) = val_main_v49 x0 x1 x2 x3 x4)
    (h1 : V (Proc.devRef .tc main_v1) = val_main_v1 x1) (h3 : V (Proc.devRef .tc main_v3) = val_main_v3 x1)
    (h25 : V (Proc.devRef .tc main_v25) = val_main_v25 x1) (h26 : V (Proc.devRef .tc main_v26) = val_main_v26 x1) :
    after (stageE (F := F)) V (Proc.devRef .tc main_v69) = val_main_v69 x0 x1 x2 x3 x4 x5 := by
  after_results_simp; rw [a5, h49, h1, h3, h25, h26]; rfl

set_option maxHeartbeats 8000000 in
set_option maxRecDepth 65536 in
theorem stageF_v70 (V : Valuation τ sig (Elt F)) (x0 : (⟨S100000x256, .f32⟩ : BufTy).Contents (Elt F)) (x1 : (⟨S2x3200000, .i32⟩ : BufTy).Contents (Elt F)) (x2 : (⟨S256x16, .f32⟩ : BufTy).Contents (Elt F)) (x3 : (⟨S16, .f32⟩ : BufTy).Contents (Elt F)) (x4 : (⟨S16x40, .f32⟩ : BufTy).Contents (Elt F)) (x5 : (⟨S40, .f32⟩ : BufTy).Contents (Elt F))
    (h69 : V (Proc.devRef .tc main_v69) = val_main_v69 x0 x1 x2 x3 x4 x5) :
    after (stageF (F := F)) V (Proc.devRef .tc main_v70) = val_main_v70 x0 x1 x2 x3 x4 x5 := by
  after_results_simp; rw [h69]
  simp only [ofBuf_toBuf]
  rfl

/-! ## What each stage leaves alone -/

theorem keepA_arg0 (V : Valuation τ sig (Elt F)) : after (stageA (F := F)) V (Proc.devRef .tc main_arg0) = V (Proc.devRef .tc main_arg0) := by
  after_results
theorem keepA_arg2 (V : Valuation τ sig (Elt F)) : after (stageA (F := F)) V (Proc.devRef .tc main_arg2) = V (Proc.devRef .tc main_arg2) := by
  after_results
theorem keepA_arg3 (V : Valuation τ sig (Elt F)) : after (stageA (F := F)) V (Proc.devRef .tc main_arg3) = V (Proc.devRef .tc main_arg3) := by
  after_results
theorem keepA_arg4 (V : Valuation τ sig (Elt F)) : after (stageA (F := F)) V (Proc.devRef .tc main_arg4) = V (Proc.devRef .tc main_arg4) := by
  after_results
theorem keepA_arg5 (V : Valuation τ sig (Elt F)) : after (stageA (F := F)) V (Proc.devRef .tc main_arg5) = V (Proc.devRef .tc main_arg5) := by
  after_results
theorem keepB_v1 (V : Valuation τ sig (Elt F)) : after (stageB (F := F)) V (Proc.devRef .tc main_v1) = V (Proc.devRef .tc main_v1) := by
  after_results
theorem keepB_v3 (V : Valuation τ sig (Elt F)) : after (stageB (F := F)) V (Proc.devRef .tc main_v3) = V (Proc.devRef .tc main_v3) := by
  after_results
theorem keepB_arg0 (V : Valuation τ sig (Elt F)) : after (stageB (F := F)) V (Proc.devRef .tc main_arg0) = V (Proc.devRef .tc main_arg0) := by
  after_results
theorem keepB_arg2 (V : Valuation τ sig (Elt F)) : after (stageB (F := F)) V (Proc.devRef .tc main_arg2) = V (Proc.devRef .tc main_arg2) := by
  after_results
theorem keepB_arg3 (V : Valuation τ sig (Elt F)) : after (stageB (F := F)) V (Proc.devRef .tc main_arg3) = V (Proc.devRef .tc main_arg3) := by
  after_results
theorem keepB_arg4 (V : Valuation τ sig (Elt F)) : after (stageB (F := F)) V (Proc.devRef .tc main_arg4) = V (Proc.devRef .tc main_arg4) := by
  after_results
theorem keepB_arg5 (V : Valuation τ sig (Elt F)) : after (stageB (F := F)) V (Proc.devRef .tc main_arg5) = V (Proc.devRef .tc main_arg5) := by
  after_results
theorem keepC_v1 (V : Valuation τ sig (Elt F)) : after (stageC (F := F)) V (Proc.devRef .tc main_v1) = V (Proc.devRef .tc main_v1) := by
  after_results
theorem keepC_v3 (V : Valuation τ sig (Elt F)) : after (stageC (F := F)) V (Proc.devRef .tc main_v3) = V (Proc.devRef .tc main_v3) := by
  after_results
theorem keepC_v25 (V : Valuation τ sig (Elt F)) : after (stageC (F := F)) V (Proc.devRef .tc main_v25) = V (Proc.devRef .tc main_v25) := by
  after_results
theorem keepC_v26 (V : Valuation τ sig (Elt F)) : after (stageC (F := F)) V (Proc.devRef .tc main_v26) = V (Proc.devRef .tc main_v26) := by
  after_results
theorem keepC_arg4 (V : Valuation τ sig (Elt F)) : after (stageC (F := F)) V (Proc.devRef .tc main_arg4) = V (Proc.devRef .tc main_arg4) := by
  after_results
theorem keepC_arg5 (V : Valuation τ sig (Elt F)) : after (stageC (F := F)) V (Proc.devRef .tc main_arg5) = V (Proc.devRef .tc main_arg5) := by
  after_results
theorem keepD_v1 (V : Valuation τ sig (Elt F)) : after (stageD (F := F)) V (Proc.devRef .tc main_v1) = V (Proc.devRef .tc main_v1) := by
  after_results
theorem keepD_v3 (V : Valuation τ sig (Elt F)) : after (stageD (F := F)) V (Proc.devRef .tc main_v3) = V (Proc.devRef .tc main_v3) := by
  after_results
theorem keepD_v25 (V : Valuation τ sig (Elt F)) : after (stageD (F := F)) V (Proc.devRef .tc main_v25) = V (Proc.devRef .tc main_v25) := by
  after_results
theorem keepD_v26 (V : Valuation τ sig (Elt F)) : after (stageD (F := F)) V (Proc.devRef .tc main_v26) = V (Proc.devRef .tc main_v26) := by
  after_results
theorem keepD_arg5 (V : Valuation τ sig (Elt F)) : after (stageD (F := F)) V (Proc.devRef .tc main_arg5) = V (Proc.devRef .tc main_arg5) := by
  after_results

/-! ## The stages chained from the launch -/

variable (m : (ℓ : Loc nD τ sig) → Buf (Elt F) ℓ)

set_option maxHeartbeats 4000000 in
/-- THE FOLD OF @main's OPERATIONS AT THE RESULT BUFFER is the last stage function of the argument arrays as launched. -/
theorem fold_value (c : Dev nD) :
    after (ops (F := F)) (launchContents m c) (Proc.devRef .tc main_v70)
      = val_main_v70 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_eq_stages, StableHlo.after_append, StableHlo.after_append, StableHlo.after_append, StableHlo.after_append, StableHlo.after_append]
  -- after stage A: the edge list's columns, the normalizers
  have a_v1 : (after (stageA (F := F)) (launchContents m c)) (Proc.devRef .tc main_v1) = val_main_v1 (m ((c.tc : Thread nD τ).loc main_arg1)) := stageA_v1 (launchContents m c)
  have a_v3 : (after (stageA (F := F)) (launchContents m c)) (Proc.devRef .tc main_v3) = val_main_v3 (m ((c.tc : Thread nD τ).loc main_arg1)) := stageA_v3 (launchContents m c)
  have a_v10 : (after (stageA (F := F)) (launchContents m c)) (Proc.devRef .tc main_v10) = val_main_v10 (m ((c.tc : Thread nD τ).loc main_arg1)) := stageA_v10 (launchContents m c)
  have a_arg0 : (after (stageA (F := F)) (launchContents m c)) (Proc.devRef .tc main_arg0) = (m ((c.tc : Thread nD τ).loc main_arg0)) := keepA_arg0 (launchContents m c)
  have a_arg2 : (after (stageA (F := F)) (launchContents m c)) (Proc.devRef .tc main_arg2) = (m ((c.tc : Thread nD τ).loc main_arg2)) := keepA_arg2 (launchContents m c)
  have a_arg3 : (after (stageA (F := F)) (launchContents m c)) (Proc.devRef .tc main_arg3) = (m ((c.tc : Thread nD τ).loc main_arg3)) := keepA_arg3 (launchContents m c)
  have a_arg4 : (after (stageA (F := F)) (launchContents m c)) (Proc.devRef .tc main_arg4) = (m ((c.tc : Thread nD τ).loc main_arg4)) := keepA_arg4 (launchContents m c)
  have a_arg5 : (after (stageA (F := F)) (launchContents m c)) (Proc.devRef .tc main_arg5) = (m ((c.tc : Thread nD τ).loc main_arg5)) := keepA_arg5 (launchContents m c)
  -- after stage B: the edge weights and the self-loop weights
  have b_v25 : (after (stageB (F := F)) (after (stageA (F := F)) (launchContents m c))) (Proc.devRef .tc main_v25) = val_main_v25 (m ((c.tc : Thread nD τ).loc main_arg1)) := stageB_v25 (after (stageA (F := F)) (launchContents m c)) _ a_v1 a_v3 a_v10
  have b_v26 : (after (stageB (F := F)) (after (stageA (F := F)) (launchContents m c))) (Proc.devRef .tc main_v26) = val_main_v26 (m ((c.tc : Thread nD τ).loc main_arg1)) := stageB_v26 (after (stageA (F := F)) (launchContents m c)) _ a_v10
  have b_v1 : (after (stageB (F := F)) (after (stageA (F := F)) (launchContents m c))) (Proc.devRef .tc main_v1) = val_main_v1 (m ((c.tc : Thread nD τ).loc main_arg1)) := (keepB_v1 (after (stageA (F := F)) (launchContents m c))).trans a_v1
  have b_v3 : (after (stageB (F := F)) (after (stageA (F := F)) (launchContents m c))) (Proc.devRef .tc main_v3) = val_main_v3 (m ((c.tc : Thread nD τ).loc main_arg1)) := (keepB_v3 (after (stageA (F := F)) (launchContents m c))).trans a_v3
  have b_arg0 : (after (stageB (F := F)) (after (stageA (F := F)) (launchContents m c))) (Proc.devRef .tc main_arg0) = (m ((c.tc : Thread nD τ).loc main_arg0)) := (keepB_arg0 (after (stageA (F := F)) (launchContents m c))).trans a_arg0
  have b_arg2 : (after (stageB (F := F)) (after (stageA (F := F)) (launchContents m c))) (Proc.devRef .tc main_arg2) = (m ((c.tc : Thread nD τ).loc main_arg2)) := (keepB_arg2 (after (stageA (F := F)) (launchContents m c))).trans a_arg2
  have b_arg3 : (after (stageB (F := F)) (after (stageA (F := F)) (launchContents m c))) (Proc.devRef .tc main_arg3) = (m ((c.tc : Thread nD τ).loc main_arg3)) := (keepB_arg3 (after (stageA (F := F)) (launchContents m c))).trans a_arg3
  have b_arg4 : (after (stageB (F := F)) (after (stageA (F := F)) (launchContents m c))) (Proc.devRef .tc main_arg4) = (m ((c.tc : Thread nD τ).loc main_arg4)) := (keepB_arg4 (after (stageA (F := F)) (launchContents m c))).trans a_arg4
  have b_arg5 : (after (stageB (F := F)) (after (stageA (F := F)) (launchContents m c))) (Proc.devRef .tc main_arg5) = (m ((c.tc : Thread nD τ).loc main_arg5)) := (keepB_arg5 (after (stageA (F := F)) (launchContents m c))).trans a_arg5
  -- after stage C: the first layer
  have c_v47 : (after (stageC (F := F)) (after (stageB (F := F)) (after (stageA (F := F)) (launchContents m c)))) (Proc.devRef .tc main_v47) = val_main_v47 (m ((c.tc : Thread nD τ).loc main_arg0)) (m ((c.tc : Thread nD τ).loc main_arg1)) (m ((c.tc : Thread nD τ).loc main_arg2)) (m ((c.tc : Thread nD τ).loc main_arg3)) :=
    stageC_v47 (after (stageB (F := F)) (after (stageA (F := F)) (launchContents m c))) _ _ _ _ b_arg0 b_arg2 b_arg3 b_v1 b_v3 b_v25 b_v26
  have c_v1 : (after (stageC (F := F)) (after (stageB (F := F)) (after (stageA (F := F)) (launchContents m c)))) (Proc.devRef .tc main_v1) = val_main_v1 (m ((c.tc : Thread nD τ).loc main_arg1)) := (keepC_v1 (after (stageB (F := F)) (after (stageA (F := F)) (launchContents m c)))).trans b_v1
  have c_v3 : (after (stageC (F := F)) (after (stageB (F := F)) (after (stageA (F := F)) (launchContents m c)))) (Proc.devRef .tc main_v3) = val_main_v3 (m ((c.tc : Thread nD τ).loc main_arg1)) := (keepC_v3 (after (stageB (F := F)) (after (stageA (F := F)) (launchContents m c)))).trans b_v3
  have c_v25 : (after (stageC (F := F)) (after (stageB (F := F)) (after (stageA (F := F)) (launchContents m c)))) (Proc.devRef .tc main_v25) = val_main_v25 (m ((c.tc : Thread nD τ).loc main_arg1)) := (keepC_v25 (after (stageB (F := F)) (after (stageA (F := F)) (launchContents m c)))).trans b_v25
  have c_v26 : (after (stageC (F := F)) (after (stageB (F := F)) (after (stageA (F := F)) (launchContents m c)))) (Proc.devRef .tc main_v26) = val_main_v26 (m ((c.tc : Thread nD τ).loc main_arg1)) := (keepC_v26 (after (stageB (F := F)) (after (stageA (F := F)) (launchContents m c)))).trans b_v26
  have c_arg4 : (after (stageC (F := F)) (after (stageB (F := F)) (after (stageA (F := F)) (launchContents m c)))) (Proc.devRef .tc main_arg4) = (m ((c.tc : Thread nD τ).loc main_arg4)) := (keepC_arg4 (after (stageB (F := F)) (after (stageA (F := F)) (launchContents m c)))).trans b_arg4
  have c_arg5 : (after (stageC (F := F)) (after (stageB (F := F)) (after (stageA (F := F)) (launchContents m c)))) (Proc.devRef .tc main_arg5) = (m ((c.tc : Thread nD τ).loc main_arg5)) := (keepC_arg5 (after (stageB (F := F)) (after (stageA (F := F)) (launchContents m c)))).trans b_arg5
  -- after stage D: the hidden layer transformed
  have d_v49 : (after (stageD (F := F)) (after (stageC (F := F)) (after (stageB (F := F)) (after (stageA (F := F)) (launchContents m c))))) (Proc.devRef .tc main_v49) = val_main_v49 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
    stageD_v49 (after (stageC (F := F)) (after (stageB (F := F)) (after (stageA (F := F)) (launchContents m c)))) _ _ _ _ _ c_arg4 c_v47
  have d_v1 : (after (stageD (F := F)) (after (stageC (F := F)) (after (stageB (F := F)) (after (stageA (F := F)) (launchContents m c))))) (Proc.devRef .tc main_v1) = val_main_v1 (m ((c.tc : Thread nD τ).loc main_arg1)) := (keepD_v1 (after (stageC (F := F)) (after (stageB (F := F)) (after (stageA (F := F)) (launchContents m c))))).trans c_v1
  have d_v3 : (after (stageD (F := F)) (after (stageC (F := F)) (after (stageB (F := F)) (after (stageA (F := F)) (launchContents m c))))) (Proc.devRef .tc main_v3) = val_main_v3 (m ((c.tc : Thread nD τ).loc main_arg1)) := (keepD_v3 (after (stageC (F := F)) (after (stageB (F := F)) (after (stageA (F := F)) (launchContents m c))))).trans c_v3
  have d_v25 : (after (stageD (F := F)) (after (stageC (F := F)) (after (stageB (F := F)) (after (stageA (F := F)) (launchContents m c))))) (Proc.devRef .tc main_v25) = val_main_v25 (m ((c.tc : Thread nD τ).loc main_arg1)) := (keepD_v25 (after (stageC (F := F)) (after (stageB (F := F)) (after (stageA (F := F)) (launchContents m c))))).trans c_v25
  have d_v26 : (after (stageD (F := F)) (after (stageC (F := F)) (after (stageB (F := F)) (after (stageA (F := F)) (launchContents m c))))) (Proc.devRef .tc main_v26) = val_main_v26 (m ((c.tc : Thread nD τ).loc main_arg1)) := (keepD_v26 (after (stageC (F := F)) (after (stageB (F := F)) (after (stageA (F := F)) (launchContents m c))))).trans c_v26
  have d_arg5 : (after (stageD (F := F)) (after (stageC (F := F)) (after (stageB (F := F)) (after (stageA (F := F)) (launchContents m c))))) (Proc.devRef .tc main_arg5) = (m ((c.tc : Thread nD τ).loc main_arg5)) := (keepD_arg5 (after (stageC (F := F)) (after (stageB (F := F)) (after (stageA (F := F)) (launchContents m c))))).trans c_arg5
  -- after stage E: the second layer; stage F: its log-softmax
  have e_v69 : (after (stageE (F := F)) (after (stageD (F := F)) (after (stageC (F := F)) (after (stageB (F := F)) (after (stageA (F := F)) (launchContents m c)))))) (Proc.devRef .tc main_v69) = val_main_v69 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    stageE_v69 (after (stageD (F := F)) (after (stageC (F := F)) (after (stageB (F := F)) (after (stageA (F := F)) (launchContents m c))))) _ _ _ _ _ _ d_arg5 d_v49 d_v1 d_v3 d_v25 d_v26
  exact stageF_v70 (after (stageE (F := F)) (after (stageD (F := F)) (after (stageC (F := F)) (after (stageB (F := F)) (after (stageA (F := F)) (launchContents m c)))))) _ _ _ _ _ _ e_v69

set_option maxRecDepth 65536 in
set_option maxHeartbeats 40000000 in
/-- On every device, from any memory with zero counters: every weakly fair execution of the reference's @main terminates with
    the result buffer at the last stage function of the arguments, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v70) = val_main_v70 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v70).trans (fold_value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Stages

end
-- ==== Proof.EdgeIndex.lean ====
/-
  Which node an edge slot reads from, and which node it lands on.

  The edge list is an integer array `[E, 1]`.  A GATHER of rows of a node array `[N, K]` (or of entries of a flat node
  array `[N]`) at those indices reads, for slot `e`, the node named by the slot's word read as a signed integer and
  CLAMPED into `[0, N - 1]` (`clampNode`), every feature in place.  A SCATTER of rows `[E, K]` into a node array lands
  slot `e`'s row on the node named by the slot's word read signed and NOT clamped, feature by feature, and drops the row
  when that is no node.  So whenever a slot's row lands on node `c`, the slot's word is `c` itself (`0 ≤ c < N`).
-/
import Idealize.ShloMosaic.Lib.ValueIdx
import Idealize.ShloMosaic.PureOps.Ideal

noncomputable section

namespace Cert.GraphConv

open Idealize.ShloMosaic Idealize.ShloMosaic.ValueIdx

/-- The node a slot's word names for a gather: read signed, clamped into `[0, N - 1]`. -/
def clampNode (N : Nat) {w : Nat} (x : BitVec w) : Nat := min x.toInt.toNat (N - 1)

theorem clampNode_lt {N w : Nat} (hN : 0 < N) (x : BitVec w) : clampNode N x < N := by
  unfold clampNode; omega

/-- A word that names a node (`0 ≤ c < N` read signed) is clamped to that node. -/
theorem clampNode_of_toInt {N w : Nat} (x : BitVec w) (c : Nat) (hc : c < N) (hx : x.toInt = (c : Int)) : clampNode N x = c := by
  unfold clampNode; rw [hx]; simp only [Int.toNat_natCast]; omega

/-- A word that names a node, read signed, is not negative: the "count from the end when negative" wrap leaves it alone. -/
theorem wrap_of_node (x n : BitVec 32) (c : Nat) (hx : x.toInt = (c : Int)) :
    Scalar.select (IntOp.cmpi .slt x 0#32) (IntOp.addi x n) x = x := by
  have hs : x.slt 0#32 = false := by
    simp [BitVec.slt, hx]
  unfold IntOp.cmpi
  simp only [hs]
  rfl

section Gather
variable {α : Type}

/-- The dimension numbers of `h[idx]` for a node array `[N, K]` and an edge list `[E, 1]`: whole rows, one per slot. -/
abbrev rowsGather (N E K : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The dimension numbers of `d[idx]` for a flat node array `[N]` and an edge list `[E, 1]`. -/
abbrev flatGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable {N E K w : Nat}

theorem rowsGather_node (wf) (idx : IVec ⟨2, ![E, 1]⟩ w) (e : Fin E) (k : Fin K) :
    ((rowsGather N E K wf).operandIdx (ix2 e k) idx 0).val = clampNode N (idx (ix2 e (0 : Fin 1))) := by
  show (rowsGather N E K wf).start (ix2 e k) idx 0 + (rowsGather N E K wf).batchCoord (ix2 e k) 0 + (rowsGather N E K wf).offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsGather N E K wf).startIndexMap from List.mem_singleton.mpr rfl)]
  have hsi : (rowsGather N E K wf).siIdx (ix2 e k) ⟨List.idxOf (0 : Fin 2) (rowsGather N E K wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowsGather_feature (wf) (idx : IVec ⟨2, ![E, 1]⟩ w) (e : Fin E) (k : Fin K) :
    ((rowsGather N E K wf).operandIdx (ix2 e k) idx 1).val = k.val := by
  show (rowsGather N E K wf).start (ix2 e k) idx 1 + (rowsGather N E K wf).batchCoord (ix2 e k) 1 + (rowsGather N E K wf).offCoord (ix2 e k) 1 = _
  rw [GatherDims.batchCoord_eq_zero _ _ _ List.not_mem_nil]
  unfold GatherDims.start
  rw [dif_neg (show ¬ (1 : Fin 2) ∈ ([0] : List (Fin 2)) by decide)]
  unfold GatherDims.offCoord
  rw [dif_pos ((GatherDims.mem_sKept _ _).mpr ⟨(show ¬ (1 : Fin 2) ∈ ([0] : List (Fin 2)) by decide), List.not_mem_nil⟩)]
  simp only [Nat.zero_add]
  rfl

/-- A GATHER OF ROWS read at slot `e`, feature `k`: the node array at the slot's clamped node, the same feature. -/
theorem gather_rows_apply (hN : 0 < N) (wf) (x : (⟨2, ![N, K]⟩ : Shape).Idx → α) (idx : IVec ⟨2, ![E, 1]⟩ w) (e : Fin E) (k : Fin K) :
    Host.gather (rowsGather N E K wf) x idx (ix2 e k) = x (ix2 ⟨clampNode N (idx (ix2 e (0 : Fin 1))), clampNode_lt hN _⟩ k) := by
  unfold Host.gather
  refine congrArg x (funext fun a => Fin.ext ?_)
  match a with
  | ⟨0, _⟩ => exact rowsGather_node wf idx e k
  | ⟨1, _⟩ => exact rowsGather_feature wf idx e k

/-- A GATHER OF ENTRIES of a flat node array read at slot `e`: the array at the slot's clamped node. -/
theorem gather_flat_apply (hN : 0 < N) (wf) (x : (⟨1, ![N]⟩ : Shape).Idx → α) (idx : IVec ⟨2, ![E, 1]⟩ w) (e : Fin E) :
    Host.gather (flatGather N E wf) x idx (ix1 e) = x (ix1 ⟨clampNode N (idx (ix2 e (0 : Fin 1))), clampNode_lt hN _⟩) := by
  unfold Host.gather
  refine congrArg x (funext fun a => Fin.ext ?_)
  obtain rfl : a = 0 := Subsingleton.elim _ _
  show (flatGather N E wf).start (ix1 e) idx 0 + (flatGather N E wf).batchCoord (ix1 e) 0 + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

section Scatter

/-- The dimension numbers of `segment_sum(rows, idx)` into a node array `[N, K]` from rows `[E, K]` at an edge list `[E, 1]`. -/
abbrev rowsScatter (N E K : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- The dimension numbers of `segment_sum(values, idx)` into a flat node array `[N]` from values `[E]`. -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E K w : Nat}

theorem rowsScatter_start0 (wf) (idx : IVec ⟨2, ![E, 1]⟩ w) (e : Fin E) (k : Fin K) :
    (rowsScatter N E K wf).start (ix2 e k) idx 0 + ((rowsScatter N E K wf).window (ix2 e k) 0 : Int) = (idx (ix2 e (0 : Fin 1))).toInt := by
  unfold ScatterDims.start ScatterDims.window
  rw [dif_pos (show (0 : Fin 2) ∈ (rowsScatter N E K wf).scatterDimsToOperandDims from List.mem_singleton.mpr rfl),
    dif_neg (show ¬ (0 : Fin 2) ∈ (rowsScatter N E K wf).sKept by simp [ScatterDims.sKept, Shape.kept, List.mem_filter])]
  have hsi : (rowsScatter N E K wf).siIdx (ix2 e k) ⟨List.idxOf (0 : Fin 2) (rowsScatter N E K wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

theorem rowsScatter_start1 (wf) (idx : IVec ⟨2, ![E, 1]⟩ w) (e : Fin E) (k : Fin K) :
    (rowsScatter N E K wf).start (ix2 e k) idx 1 + ((rowsScatter N E K wf).window (ix2 e k) 1 : Int) = (k.val : Int) := by
  unfold ScatterDims.start ScatterDims.window
  rw [dif_neg (show ¬ (1 : Fin 2) ∈ ([0] : List (Fin 2)) by decide),
    dif_pos (show (1 : Fin 2) ∈ (rowsScatter N E K wf).sKept by simp [ScatterDims.sKept, Shape.kept, List.mem_filter, List.mem_finRange])]
  simp only [Int.zero_add]
  rfl

/-- WHERE A SCATTERED ROW LANDS: if slot `e`'s feature `k` lands on index `i` of the node array, the slot's word read signed
    is node `i 0` and the feature is `i 1`. -/
theorem rowsScatter_lands (wf) (idx : IVec ⟨2, ![E, 1]⟩ w) (e : Fin E) (k : Fin K) (i : (⟨2, ![N, K]⟩ : Shape).Idx)
    (h : (rowsScatter N E K wf).resultIdx? (ix2 e k) idx = some i) :
    (idx (ix2 e (0 : Fin 1))).toInt = ((i 0).val : Int) ∧ k.val = (i 1).val := by
  unfold ScatterDims.resultIdx? at h
  split at h
  · rename_i hall
    have hi := Option.some.inj h
    have h0 := congrArg (fun f => (f 0).val) hi
    have h1 := congrArg (fun f => (f 1).val) hi
    simp only at h0 h1
    have b0 := hall 0
    have b1 := hall 1
    rw [rowsScatter_start0] at h0 b0
    rw [rowsScatter_start1] at h1 b1
    constructor
    · omega
    · omega
  · exact absurd h (by simp)

end Scatter

end Cert.GraphConv

end
-- ==== Proof.SegmentLaw.lean ====
/-
  The algebra on the extended reals that joins the two ways of normalizing a graph convolution.

  For a node `c` with normalizer `d c = (1 + indegree c)^(-1/2)`, the reference sums, over the edges `e` into `c`,
  the transformed source row times the per-edge weight `d (src e) * d c`, and adds the self loop `h c * (d c * d c)`.
  The kernel scales every row once, `hs r = h r * d r`, sums the scaled source rows over the same edges, adds `hs c`,
  and multiplies the whole by `d c`.  The two agree because `d c` is a NONNEGATIVE FINITE factor: such a factor
  distributes over sums of arbitrary extended reals (infinite summands included), so nothing has to be assumed of
  the features.  That `d c` is such a factor is the last part: an indegree is a finite sum of ones, and the
  reciprocal square root of a real that is at least one is a nonnegative real.
-/
import Idealize.ShloMosaic.PureOps.Ideal
import Mathlib.Data.EReal.Operations

noncomputable section

namespace Cert.GraphConv

open Idealize.ShloMosaic

/-- A nonnegative finite factor moves inside a finite sum of extended reals. -/
theorem mul_sum_of_nonneg_ne_top {ι : Type} (s : Finset ι) (f : ι → EReal) {d : EReal} (h0 : 0 ≤ d) (ht : d ≠ ⊤) :
    d * ∑ j ∈ s, f j = ∑ j ∈ s, d * f j := by
  classical
  induction s using Finset.induction_on with
  | empty => simp
  | insert a s ha ih =>
    rw [Finset.sum_insert ha, Finset.sum_insert ha, EReal.left_distrib_of_nonneg_of_ne_top h0 ht, ih]

/-- THE NORMALIZATION LAW at one node and one feature.  `s` is the set of edge slots landing on the node, `a j` the
    transformed source feature of slot `j`, `δr j` the source's normalizer, `δc j` the target's normalizer as the
    reference gathers it (equal to the node's own `dc` on every slot of `s`), `hc` the node's own feature. -/
theorem normalize_segment {ι : Type} (s : Finset ι) (a δr δc : ι → EReal) (hc dc : EReal)
    (h0 : 0 ≤ dc) (ht : dc ≠ ⊤) (hδ : ∀ j ∈ s, δc j = dc) :
    dc * ((0 + ∑ j ∈ s, a j * δr j) + hc * dc) = (0 + ∑ j ∈ s, a j * (δr j * δc j)) + hc * (dc * dc) := by
  rw [zero_add, zero_add, EReal.left_distrib_of_nonneg_of_ne_top h0 ht, mul_sum_of_nonneg_ne_top s _ h0 ht]
  congr 1
  · refine Finset.sum_congr rfl fun j hj => ?_
    rw [hδ j hj, mul_left_comm, mul_comm dc]
  · rw [mul_left_comm]

/-- A finite sum of ones is a nonnegative finite extended real. -/
theorem sum_one_nonneg_ne_top {ι : Type} (s : Finset ι) :
    0 ≤ ∑ _j ∈ s, (1 : EReal) ∧ ∑ _j ∈ s, (1 : EReal) ≠ ⊤ := by
  classical
  induction s using Finset.induction_on with
  | empty => simp
  | insert a s ha ih =>
    rw [Finset.sum_insert ha]
    refine ⟨add_nonneg zero_le_one ih.1, ?_⟩
    exact EReal.add_ne_top (by simpa using EReal.coe_ne_top (1 : ℝ)) ih.2

/-- The host's accumulating scatter at the ideal values is the exact sum, whatever the record is spelled as. -/
theorem scatterAdd_ideal {s si u : Shape} {w : Nat} (d d' : ScatterDims s si u) (hd : d = d')
    (x : FVec Ideal s .f32) (idx : IVec si w) (upd : FVec Ideal u .f32) :
    Host.scatterAdd (F := Ideal) d x idx upd = Ideal.hostScatterAdd d' x idx upd := by
  subst hd
  rfl

/-- An accumulating scatter of ones into zeros holds, at every index, a count: a nonnegative finite extended real.  Stated for
    an arbitrary scatter, so that no particular index set is ever in view. -/
theorem scatter_of_ones_nonneg_ne_top {s si u : Shape} {w : Nat} (d : ScatterDims s si u) (x : s.Idx → EReal) (idx : IVec si w)
    (upd : u.Idx → EReal) (i : s.Idx) (hx : x i = 0) (hu : ∀ j, upd j = 1) :
    0 ≤ Ideal.hostScatterAdd d x idx upd i ∧ Ideal.hostScatterAdd d x idx upd i ≠ ⊤ := by
  unfold Ideal.hostScatterAdd
  rw [hx, zero_add, Finset.sum_congr rfl fun j _ => hu j]
  exact sum_one_nonneg_ne_top _

/-- The reciprocal square root of one more than a nonnegative finite extended real is nonnegative and finite. -/
theorem rsqrt_succ_nonneg_ne_top {x : EReal} (h0 : 0 ≤ x) (ht : x ≠ ⊤) :
    0 ≤ Ideal.rsqrt (x + 1) ∧ Ideal.rsqrt (x + 1) ≠ ⊤ := by
  have hb : x ≠ ⊥ := fun e => by rw [e] at h0; exact absurd h0 (by simp)
  lift x to ℝ using ⟨ht, hb⟩
  have hx : (0 : ℝ) ≤ x := by exact_mod_cast h0
  have e : ((x : ℝ) : EReal) + 1 = ((x + 1 : ℝ) : EReal) := by norm_cast
  rw [e, Ideal.rsqrt_coe]
  have hpos : ¬ (x + 1 < 0) := by linarith
  have hne : ¬ (x + 1 = 0) := by linarith
  rw [if_neg hpos, if_neg hne]
  exact ⟨by exact_mod_cast (inv_nonneg.mpr (Real.sqrt_nonneg _)), EReal.coe_ne_top _⟩

end Cert.GraphConv

end
-- ==== Proof.Aggregate.lean ====
/-
  One graph-convolution layer, aggregated two ways.

  `h` holds the transformed features of the `N` nodes (`K` wide), `δ` the node normalizers, and the edge list gives for every
  slot a target word (scattered as it stands: `dst`) and the gather indices of its source and of its target (`srcW`, `dstW`:
  clamped when read).  The kernel's arrangement scales every row once, sums the scaled source rows onto the targets, adds the
  node's own scaled row and scales the total; the reference's weighs every gathered source row by the two normalizers of
  its edge, sums, and adds the self loop.  At every node `P` and feature `k` they agree, provided every normalizer is a
  nonnegative finite number and a slot that lands on node `c` also reads node `c` as its target.
-/
import proofs.«154231_j56642028700327_2_alg».proof.Proof.EdgeIndex
import proofs.«154231_j56642028700327_2_alg».proof.Proof.SegmentLaw

noncomputable section

namespace Cert.GraphConv

open Idealize.ShloMosaic Idealize.ShloMosaic.ValueIdx

variable {N E K w : Nat}

/-- The first coordinate of an index of a matrix, at its literal type. -/
abbrev row0 {a b : Nat} (j : (⟨2, ![a, b]⟩ : Shape).Idx) : Fin a := ⟨(j 0).val, idx2_lt0 j⟩

theorem row0_ix2 {a b : Nat} (e : Fin a) (k : Fin b) : row0 (ix2 e k) = e := rfl

theorem aggregate_normalized (hN : 0 < N)
    (wg : GatherDims.WF ⟨2, ![N, K]⟩ ⟨2, ![E, 1]⟩ ⟨2, ![E, K]⟩ [1] [0] [] [0] [] 1 ![1, K])
    (ws : ScatterDims.WF ⟨2, ![N, K]⟩ ⟨2, ![E, 1]⟩ ⟨2, ![E, K]⟩ [1] [0] [0] 1)
    (w1 : GatherDims.WF ⟨1, ![N]⟩ ⟨2, ![E, 1]⟩ ⟨1, ![E]⟩ [] [0] [] [0] [] 1 ![1])
    (h : (⟨2, ![N, K]⟩ : Shape).Idx → EReal) (δ : (⟨1, ![N]⟩ : Shape).Idx → EReal)
    (dst srcW dstW : IVec ⟨2, ![E, 1]⟩ w)
    (hδ : ∀ c, 0 ≤ δ c ∧ δ c ≠ ⊤)
    (hdst : ∀ (e : Fin E) (c : Fin N), (dst (ix2 e (0 : Fin 1))).toInt = (c.val : Int) → clampNode N (dstW (ix2 e (0 : Fin 1))) = c.val)
    (P : Fin N) (k : Fin K) :
    δ (ix1 P) * (Ideal.hostScatterAdd (rowsScatter N E K ws) (fun _ => 0) dst
          (Host.gather (rowsGather N E K wg) (fun i => h i * δ (ix1 (row0 i))) srcW) (ix2 P k) + h (ix2 P k) * δ (ix1 P))
      = Ideal.hostScatterAdd (rowsScatter N E K ws) (fun _ => 0) dst
          (fun j => Host.gather (rowsGather N E K wg) h srcW j
            * (Host.gather (flatGather N E w1) δ srcW (ix1 (row0 j)) * Host.gather (flatGather N E w1) δ dstW (ix1 (row0 j)))) (ix2 P k)
        + h (ix2 P k) * (δ (ix1 P) * δ (ix1 P)) := by
  have hP := hδ (ix1 P)
  unfold Ideal.hostScatterAdd
  -- the slot's source node, and the three per-slot quantities the law is stated over
  let nd : (⟨2, ![E, K]⟩ : Shape).Idx → Fin N := fun j => ⟨clampNode N (srcW (ix2 (row0 j) (0 : Fin 1))), clampNode_lt hN _⟩
  let a : (⟨2, ![E, K]⟩ : Shape).Idx → EReal := fun j => h (ix2 (nd j) (⟨(j 1).val, idx2_lt1 j⟩ : Fin K))
  let δr : (⟨2, ![E, K]⟩ : Shape).Idx → EReal := fun j => δ (ix1 (nd j))
  let δc : (⟨2, ![E, K]⟩ : Shape).Idx → EReal := fun j => Host.gather (flatGather N E w1) δ dstW (ix1 (row0 j))
  have e1 : ∀ j : (⟨2, ![E, K]⟩ : Shape).Idx,
      Host.gather (rowsGather N E K wg) (fun i => h i * δ (ix1 (row0 i))) srcW j = a j * δr j := fun j => by
    obtain ⟨e, k', rfl⟩ : ∃ (e : Fin E) (k' : Fin K), j = ix2 e k' := ⟨j 0, j 1, eq_ix2 j⟩
    rw [gather_rows_apply hN]
    rfl
  have e2 : ∀ j : (⟨2, ![E, K]⟩ : Shape).Idx,
      Host.gather (rowsGather N E K wg) h srcW j
        * (Host.gather (flatGather N E w1) δ srcW (ix1 (row0 j)) * Host.gather (flatGather N E w1) δ dstW (ix1 (row0 j)))
        = a j * (δr j * δc j) := fun j => by
    obtain ⟨e, k', rfl⟩ : ∃ (e : Fin E) (k' : Fin K), j = ix2 e k' := ⟨j 0, j 1, eq_ix2 j⟩
    rw [gather_rows_apply hN, row0_ix2, gather_flat_apply hN w1 δ srcW e]
    rfl
  have hc : ∀ j ∈ Finset.univ.filter (fun j => (rowsScatter N E K ws).resultIdx? j dst = some (ix2 P k)), δc j = δ (ix1 P) := fun j hj => by
    have hl := (Finset.mem_filter.mp hj).2
    obtain ⟨e, k', rfl⟩ : ∃ (e : Fin E) (k' : Fin K), j = ix2 e k' := ⟨j 0, j 1, eq_ix2 j⟩
    have hland := (rowsScatter_lands ws dst e k' (ix2 P k) hl).1
    have hcl := hdst e P hland
    show Host.gather (flatGather N E w1) δ dstW (ix1 e) = δ (ix1 P)
    rw [gather_flat_apply hN w1 δ dstW e]
    exact congrArg δ (congrArg ix1 (Fin.ext hcl))
  show δ (ix1 P) * ((0 + ∑ j ∈ Finset.univ.filter (fun j => (rowsScatter N E K ws).resultIdx? j dst = some (ix2 P k)),
        Host.gather (rowsGather N E K wg) (fun i => h i * δ (ix1 (row0 i))) srcW j) + h (ix2 P k) * δ (ix1 P))
    = (0 + ∑ j ∈ Finset.univ.filter (fun j => (rowsScatter N E K ws).resultIdx? j dst = some (ix2 P k)),
        Host.gather (rowsGather N E K wg) h srcW j
          * (Host.gather (flatGather N E w1) δ srcW (ix1 (row0 j)) * Host.gather (flatGather N E w1) δ dstW (ix1 (row0 j))))
      + h (ix2 P k) * (δ (ix1 P) * δ (ix1 P))
  rw [Finset.sum_congr rfl fun j _ => e1 j, Finset.sum_congr rfl fun j _ => e2 j]
  exact normalize_segment _ a δr δc _ _ hP.1 hP.2 hc

end Cert.GraphConv

end
-- ==== Proof.Bridge.lean ====
/-
  The two programs side by side.

  FIRST, WHAT THEY SHARE.
  Both programs cut the same two columns out of the edge list, count the same indegrees into the same normalizers, and use
  the same scatter and gather index arrays; spelled in either program these are the same terms.  Two facts about them are all
  that the comparison of the layers needs: every normalizer is a nonnegative finite number (the reciprocal square root of one
  plus a finite count), and an edge slot whose target word names node `c` also READS node `c` as its target (the word is not
  negative, so it is neither wrapped nor clamped).

  THEN, LAYER BY LAYER.  The kernel's scaled feature array is the reference's transformed features with every row scaled by its
  node's normalizer; with that, the normalization law (Proof/Aggregate) turns the kernel's combined row into the reference's layer,
  at every node and feature — first the 16-wide layer (whose positive part feeds the second matrix product on both sides), then the
  40-wide one.  The reference's log-softmax is read as the same function of the row as the kernel's, so the two results agree.
  Every step around the reference's long operation chain is a rewrite with a stated lemma: nothing is left to be compared by unfolding.
-/
import proofs.«154231_j56642028700327_2_alg».proof.Proof.KernelValue
import proofs.«154231_j56642028700327_2_alg».proof.Proof.RefRead
import proofs.«154231_j56642028700327_2_alg».proof.Proof.EdgeIndex
import proofs.«154231_j56642028700327_2_alg».proof.Proof.Aggregate
import proofs.«154231_j56642028700327_2_alg».proof.Proof.RowSoftmax
import proofs.«154231_j56642028700327_2_alg».proof.Proof.SegmentLaw
import proofs.«154231_j56642028700327_2_alg».proof.Proof.Columns
import Idealize.ShloMosaic.PureOps.Ideal.Laws
import Mathlib.Data.Finset.Fold

set_option maxRecDepth 16384

noncomputable section

namespace Cert.Bridge

open Idealize.ShloMosaic Idealize.ShloMosaic.ValueIdx Cert.GraphConv
open Cert.KernelIdeal Cert.KernelIdeal.Gen Cert.KernelIdeal.Layers

/-- `1.0` denotes the real one. -/
theorem ofBits_one : Ideal.ofBits .f32 0x3F800000#32 = 1 := by
  simp [Ideal.ofBits, Ideal.ieee, -EReal.coe_mul]; norm_num

variable (x0 : (⟨S100000x256, .f32⟩ : BufTy).Contents (Elt Ideal)) (x1 : (⟨S2x3200000, .i32⟩ : BufTy).Contents (Elt Ideal)) (x2 : (⟨S256x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal))

/-! ## The shared arrays, spelled in either program -/

theorem src_eq : Cert.ReferenceIdeal.ReadP.val_main_v1 (F := Ideal) x1 = srcCol x1 := rfl
theorem dst_eq : Cert.ReferenceIdeal.ReadP.val_main_v3 (F := Ideal) x1 = dstCol x1 := rfl
theorem dstSlots16_eq : Cert.ReferenceIdeal.ReadP.val_main_v39 (F := Ideal) x1 = asSlots (dstCol x1) := rfl
theorem dstSlots40_eq : Cert.ReferenceIdeal.ReadP.val_main_v61 (F := Ideal) x1 = asSlots (dstCol x1) := rfl
theorem srcRead16_eq : Cert.ReferenceIdeal.ReadP.val_main_v33 (F := Ideal) x1 = wrappedSlots (srcCol x1) := rfl
theorem srcRead40_eq : Cert.ReferenceIdeal.ReadP.val_main_v55 (F := Ideal) x1 = wrappedSlots (srcCol x1) := rfl
theorem srcReadN_eq : Cert.ReferenceIdeal.ReadP.val_main_v16 (F := Ideal) x1 = wrappedSlots (srcCol x1) := rfl
theorem dstReadN_eq : Cert.ReferenceIdeal.ReadP.val_main_v23 (F := Ideal) x1 = wrappedSlots (dstCol x1) := rfl
theorem normalizerCol_eq :
    normalizerCol (dstCol x1) = shapeCast _ (Cert.ReferenceIdeal.ReadP.val_main_v10 (F := Ideal) x1) shapeCasts_S100000_S100000x1 := rfl

/-- The normalizer column at node `P` is the node's normalizer. -/
theorem normalizerCol_apply (P : Fin 100000) :
    normalizerCol (dstCol x1) (ix2 P (0 : Fin 1)) = Cert.ReferenceIdeal.ReadP.val_main_v10 (F := Ideal) x1 (ix1 P) := by
  rw [normalizerCol_eq]
  exact shapeCast_a_a1_apply _ _ P 0

/-! ## Every normalizer is a nonnegative finite number -/

theorem normalizer_nonneg_ne_top (c : (⟨1, ![100000]⟩ : Shape).Idx) :
    0 ≤ Cert.ReferenceIdeal.ReadP.val_main_v10 (F := Ideal) x1 c ∧ Cert.ReferenceIdeal.ReadP.val_main_v10 (F := Ideal) x1 c ≠ ⊤ := by
  rw [Cert.ReferenceIdeal.ReadP.val_main_v10_apply, Cert.ReferenceIdeal.ReadP.val_main_v9_apply, Ideal.hostUnary_rsqrt_def, Ideal.addf_def]
  have h8 : Cert.ReferenceIdeal.ReadP.val_main_v8 (F := Ideal) c = 1 := by
    rw [Cert.ReferenceIdeal.ReadP.val_main_v8_apply, Cert.ReferenceIdeal.ReadP.val_main_cst_1_apply, Ideal.ofBits_def]; exact ofBits_one
  have h7 : 0 ≤ Cert.ReferenceIdeal.ReadP.val_main_v7 (F := Ideal) x1 c ∧ Cert.ReferenceIdeal.ReadP.val_main_v7 (F := Ideal) x1 c ≠ ⊤ := by
    have h5 : Cert.ReferenceIdeal.ReadP.val_main_v5 (F := Ideal) c = 0 := by
      rw [Cert.ReferenceIdeal.ReadP.val_main_v5_apply, Cert.ReferenceIdeal.ReadP.val_main_cst_0_apply, Ideal.ofBits_def]; exact Ideal.ofBits_zero_f32
    have h4 : ∀ j, Cert.ReferenceIdeal.ReadP.val_main_v4 (F := Ideal) j = 1 := fun j => by
      rw [Cert.ReferenceIdeal.ReadP.val_main_v4_apply, Cert.ReferenceIdeal.ReadP.val_main_cst_apply, Ideal.ofBits_def]; exact ofBits_one
    unfold Cert.ReferenceIdeal.ReadP.val_main_v7
    rw [scatterAdd_ideal _ _ rfl]
    exact scatter_of_ones_nonneg_ne_top _ _ _ _ c h5 h4
  rw [h8]
  -- the count is now just an extended real `s` that is nonnegative and finite
  generalize Cert.ReferenceIdeal.ReadP.val_main_v7 (F := Ideal) x1 c = s at h7 ⊢
  exact rsqrt_succ_nonneg_ne_top h7.1 h7.2

/-! ## A slot that lands on a node reads that node -/

theorem slots_apply (u : (⟨S3200000, .i32⟩ : BufTy).Contents (Elt Ideal)) (e : Fin 3200000) :
    broadcastInDim S3200000x1 ![0] bcast_S3200000_S3200000x1_0 u (ix2 e (0 : Fin 1)) = u (ix1 e) :=
  broadcastInDim_apply ![0] bcast_S3200000_S3200000x1_0 u (ix2 e (0 : Fin 1)) (ix1 e) (fun a => by
    match a with
    | ⟨0, _⟩ => show e.val = if (3200000 : Nat) = 1 then 0 else e.val; rfl)

theorem lands_reads (v : (⟨S3200000, .i32⟩ : BufTy).Contents (Elt Ideal)) (e : Fin 3200000) (c : Fin 100000)
    (h : (asSlots v (ix2 e (0 : Fin 1))).toInt = (c.val : Int)) :
    clampNode 100000 (wrappedSlots v (ix2 e (0 : Fin 1))) = c.val := by
  unfold asSlots at h
  rw [slots_apply] at h
  unfold wrappedSlots
  rw [slots_apply]
  show clampNode 100000 (Scalar.select (IntOp.cmpi .slt (v (ix1 e)) 0#32) (IntOp.addi (v (ix1 e)) 100000#32) (v (ix1 e))) = c.val
  rw [wrap_of_node _ _ c.val h]
  exact clampNode_of_toInt _ c.val c.isLt h

/-! ## One layer in both programs -/

/-- The flat gather's dimension numbers are well formed. -/
theorem flatWf : GatherDims.WF ⟨1, ![100000]⟩ ⟨2, ![3200000, 1]⟩ ⟨1, ![3200000]⟩ [] [0] [] [0] [] 1 ![1] :=
  Cert.ReferenceIdeal.gather_S100000_S3200000x1_S3200000_n_0_n_n_0_1_1.wf

theorem gatherRN_eq : Cert.ReferenceIdeal.gather_S100000_S3200000x1_S3200000_n_0_n_n_0_1_1
    = flatGather 100000 3200000 flatWf := rfl

/-! ### The 16-wide layer -/

theorem gatherR16_eq : Cert.ReferenceIdeal.gather_S100000x16_S3200000x1_S3200000x16_1_0_n_n_0_1_116 = rowsGather 100000 3200000 16 gather_S100000x16_S3200000x1_S3200000x16_1_0_n_n_0_1_116_wf := rfl
theorem scatterR16_eq : Cert.ReferenceIdeal.scatter_S100000x16_S3200000x1_S3200000x16_1_0_0_1 = rowsScatter 100000 3200000 16 scatter_S100000x16_S3200000x1_S3200000x16_1_0_0_1_wf := rfl
theorem gatherK16_eq : gather_S100000x16_S3200000x1_S3200000x16_1_0_n_n_0_1_116 = rowsGather 100000 3200000 16 gather_S100000x16_S3200000x1_S3200000x16_1_0_n_n_0_1_116_wf := rfl
theorem scatterK16_eq : scatter_S100000x16_S3200000x1_S3200000x16_1_0_0_1 = rowsScatter 100000 3200000 16 scatter_S100000x16_S3200000x1_S3200000x16_1_0_0_1_wf := rfl

/-- The reference's layer at a node and a feature: the scattered sum, the self loop, the bias. -/
theorem layer16_ref_read (P : Fin 100000) (k : Fin 16) :
    Cert.ReferenceIdeal.ReadP.val_main_v47 (F := Ideal) x0 x1 x2 x3 (ix2 P k)
      = (Cert.ReferenceIdeal.ReadP.val_main_v40 (F := Ideal) x0 x1 x2 (ix2 P k)
          + (Cert.ReferenceIdeal.ReadP.val_main_v27 (F := Ideal) x0 x2) (ix2 P k) * ((Cert.ReferenceIdeal.ReadP.val_main_v10 (F := Ideal) x1) (ix1 P) * (Cert.ReferenceIdeal.ReadP.val_main_v10 (F := Ideal) x1) (ix1 P))) + x3 (ix1 k) := by
  rw [Cert.ReferenceIdeal.ReadP.val_main_v47_apply, Cert.ReferenceIdeal.ReadP.val_main_v46_apply, Cert.ReferenceIdeal.ReadP.val_main_v45_apply, Cert.ReferenceIdeal.ReadP.val_main_v44_apply, Cert.ReferenceIdeal.ReadP.val_main_v43_apply, Cert.ReferenceIdeal.ReadP.val_main_v42_apply,
    Cert.ReferenceIdeal.ReadP.val_main_v41_apply, Cert.ReferenceIdeal.ReadP.val_main_v26_apply]
  have hb : Cert.ReferenceIdeal.ReadP.idx_main_v45 (Cert.ReferenceIdeal.ReadP.idx_main_v46 (ix2 P k)) = ix1 k := funext fun a => by
    match a with
    | ⟨0, _⟩ => rfl
  have hd : Cert.ReferenceIdeal.ReadP.idx_main_v41 (Cert.ReferenceIdeal.ReadP.idx_main_v42 (ix2 P k)) = ix1 P := funext fun a => by
    match a with
    | ⟨0, _⟩ => rfl
  rw [hb, hd]
  -- four extended reals from here on
  generalize Cert.ReferenceIdeal.ReadP.val_main_v40 (F := Ideal) x0 x1 x2 (ix2 P k) = s
  generalize (Cert.ReferenceIdeal.ReadP.val_main_v27 (F := Ideal) x0 x2) (ix2 P k) = hh
  generalize (Cert.ReferenceIdeal.ReadP.val_main_v10 (F := Ideal) x1) (ix1 P) = dd
  generalize x3 (ix1 k) = bb
  rfl

/-- The rows the reference scatters: the gathered source row times the edge's two normalizers. -/
theorem layer16_ref_rows : Cert.ReferenceIdeal.ReadP.val_main_v37 (F := Ideal) x0 x1 x2 = (fun j' => Host.gather (rowsGather 100000 3200000 16 gather_S100000x16_S3200000x1_S3200000x16_1_0_n_n_0_1_116_wf) (Cert.ReferenceIdeal.ReadP.val_main_v27 (F := Ideal) x0 x2) (wrappedSlots (srcCol x1)) j'
        * (Host.gather (flatGather 100000 3200000 flatWf) (Cert.ReferenceIdeal.ReadP.val_main_v10 (F := Ideal) x1) (wrappedSlots (srcCol x1)) (ix1 (row0 j'))
          * Host.gather (flatGather 100000 3200000 flatWf) (Cert.ReferenceIdeal.ReadP.val_main_v10 (F := Ideal) x1) (wrappedSlots (dstCol x1)) (ix1 (row0 j')))) := funext fun j' => by
  rw [Cert.ReferenceIdeal.ReadP.val_main_v37_apply, Cert.ReferenceIdeal.ReadP.val_main_v36_apply, Cert.ReferenceIdeal.ReadP.val_main_v35_apply, Cert.ReferenceIdeal.ReadP.val_main_v25_apply]
  have hi : Cert.ReferenceIdeal.ReadP.idx_main_v35 (Cert.ReferenceIdeal.ReadP.idx_main_v36 j') = ix1 (row0 j') := funext fun a => by
    match a with
    | ⟨0, _⟩ => rfl
  rw [hi]
  unfold Cert.ReferenceIdeal.ReadP.val_main_v34 Cert.ReferenceIdeal.ReadP.val_main_v17 Cert.ReferenceIdeal.ReadP.val_main_v24
  rw [srcRead16_eq, srcReadN_eq, dstReadN_eq, gatherR16_eq, gatherRN_eq]
  generalize Host.gather (rowsGather 100000 3200000 16 gather_S100000x16_S3200000x1_S3200000x16_1_0_n_n_0_1_116_wf) (Cert.ReferenceIdeal.ReadP.val_main_v27 (F := Ideal) x0 x2) (wrappedSlots (srcCol x1)) j' = g0
  generalize Host.gather (flatGather 100000 3200000 flatWf) (Cert.ReferenceIdeal.ReadP.val_main_v10 (F := Ideal) x1) (wrappedSlots (srcCol x1)) (ix1 (row0 j')) = g1
  generalize Host.gather (flatGather 100000 3200000 flatWf) (Cert.ReferenceIdeal.ReadP.val_main_v10 (F := Ideal) x1) (wrappedSlots (dstCol x1)) (ix1 (row0 j')) = g2
  rfl

/-- The reference's scattered sum, as the exact sum over the slots that land on the node. -/
theorem layer16_ref_sum (P : Fin 100000) (k : Fin 16) :
    Cert.ReferenceIdeal.ReadP.val_main_v40 (F := Ideal) x0 x1 x2 (ix2 P k)
      = Ideal.hostScatterAdd (rowsScatter 100000 3200000 16 scatter_S100000x16_S3200000x1_S3200000x16_1_0_0_1_wf) (fun _ => 0) (asSlots (dstCol x1)) (fun j' => Host.gather (rowsGather 100000 3200000 16 gather_S100000x16_S3200000x1_S3200000x16_1_0_n_n_0_1_116_wf) (Cert.ReferenceIdeal.ReadP.val_main_v27 (F := Ideal) x0 x2) (wrappedSlots (srcCol x1)) j'
        * (Host.gather (flatGather 100000 3200000 flatWf) (Cert.ReferenceIdeal.ReadP.val_main_v10 (F := Ideal) x1) (wrappedSlots (srcCol x1)) (ix1 (row0 j'))
          * Host.gather (flatGather 100000 3200000 flatWf) (Cert.ReferenceIdeal.ReadP.val_main_v10 (F := Ideal) x1) (wrappedSlots (dstCol x1)) (ix1 (row0 j')))) (ix2 P k) := by
  have hz : Cert.ReferenceIdeal.ReadP.val_main_v38 (F := Ideal) = fun _ => (0 : EReal) := funext fun i => by
    rw [Cert.ReferenceIdeal.ReadP.val_main_v38_apply, Cert.ReferenceIdeal.ReadP.val_main_cst_7_apply]; exact Ideal.ofBits_zero_f32
  unfold Cert.ReferenceIdeal.ReadP.val_main_v40
  rw [layer16_ref_rows, hz, dstSlots16_eq, scatterAdd_ideal _ _ scatterR16_eq]

/-- The kernel's neighbour sum of a scaled feature array, as the exact sum over the slots that land on the node. -/
theorem layer16_kernel_sum (HS : (⟨S100000x16, .f32⟩ : BufTy).Contents (Elt Ideal)) (P : Fin 100000) (k : Fin 16) :
    neighbourSum16 HS (srcCol x1) (dstCol x1) (ix2 P k)
      = Ideal.hostScatterAdd (rowsScatter 100000 3200000 16 scatter_S100000x16_S3200000x1_S3200000x16_1_0_0_1_wf) (fun _ => 0) (asSlots (dstCol x1))
          (Host.gather (rowsGather 100000 3200000 16 gather_S100000x16_S3200000x1_S3200000x16_1_0_n_n_0_1_116_wf) HS (wrappedSlots (srcCol x1))) (ix2 P k) := by
  have hzK : (broadcastInDim S100000x16 ![] bcast_S_S100000x16 (constant (F := Ideal) S_ .f32 0x00000000#32)) = fun _ => (0 : EReal) :=
    funext fun _ => Ideal.ofBits_zero_f32
  unfold neighbourSum16
  rw [hzK, gatherK16_eq, scatterAdd_ideal _ _ scatterK16_eq]

/-- THE 16-WIDE LAYER IN BOTH PROGRAMS.  `HS` is the kernel's scaled feature array: the reference's transformed features with
    every row scaled by its node's normalizer.  Then the kernel's combined row (scaled sum of the neighbours' scaled rows and the
    node's own, plus the bias) is the reference's layer (weighted neighbour sum, self loop, bias) at every node and feature. -/
theorem layer16 (HS : (⟨S100000x16, .f32⟩ : BufTy).Contents (Elt Ideal))
    (hHS : HS = (fun i => (Cert.ReferenceIdeal.ReadP.val_main_v27 (F := Ideal) x0 x2) i * (Cert.ReferenceIdeal.ReadP.val_main_v10 (F := Ideal) x1) (ix1 (row0 i)))) (P : Fin 100000) (k : Fin 16) :
    normalizerCol (dstCol x1) (ix2 P (0 : Fin 1)) * (neighbourSum16 HS (srcCol x1) (dstCol x1) (ix2 P k) + HS (ix2 P k)) + x3 (ix1 k)
      = Cert.ReferenceIdeal.ReadP.val_main_v47 (F := Ideal) x0 x1 x2 x3 (ix2 P k) := by
  have key := aggregate_normalized (N := 100000) (E := 3200000) (K := 16) (w := 32) (by norm_num) gather_S100000x16_S3200000x1_S3200000x16_1_0_n_n_0_1_116_wf scatter_S100000x16_S3200000x1_S3200000x16_1_0_0_1_wf flatWf
    (Cert.ReferenceIdeal.ReadP.val_main_v27 (F := Ideal) x0 x2) (Cert.ReferenceIdeal.ReadP.val_main_v10 (F := Ideal) x1) (asSlots (dstCol x1)) (wrappedSlots (srcCol x1)) (wrappedSlots (dstCol x1))
    (normalizer_nonneg_ne_top x1) (lands_reads (dstCol x1)) P k
  rw [layer16_ref_read, layer16_ref_sum, ← key, normalizerCol_apply, layer16_kernel_sum, hHS]

/-! ### The 40-wide layer -/

theorem gatherR40_eq : Cert.ReferenceIdeal.gather_S100000x40_S3200000x1_S3200000x40_1_0_n_n_0_1_140 = rowsGather 100000 3200000 40 gather_S100000x40_S3200000x1_S3200000x40_1_0_n_n_0_1_140_wf := rfl
theorem scatterR40_eq : Cert.ReferenceIdeal.scatter_S100000x40_S3200000x1_S3200000x40_1_0_0_1 = rowsScatter 100000 3200000 40 scatter_S100000x40_S3200000x1_S3200000x40_1_0_0_1_wf := rfl
theorem gatherK40_eq : gather_S100000x40_S3200000x1_S3200000x40_1_0_n_n_0_1_140 = rowsGather 100000 3200000 40 gather_S100000x40_S3200000x1_S3200000x40_1_0_n_n_0_1_140_wf := rfl
theorem scatterK40_eq : scatter_S100000x40_S3200000x1_S3200000x40_1_0_0_1 = rowsScatter 100000 3200000 40 scatter_S100000x40_S3200000x1_S3200000x40_1_0_0_1_wf := rfl

/-- The reference's layer at a node and a feature: the scattered sum, the self loop, the bias. -/
theorem layer40_ref_read (P : Fin 100000) (k : Fin 40) :
    Cert.ReferenceIdeal.ReadP.val_main_v69 (F := Ideal) x0 x1 x2 x3 x4 x5 (ix2 P k)
      = (Cert.ReferenceIdeal.ReadP.val_main_v62 (F := Ideal) x0 x1 x2 x3 x4 (ix2 P k)
          + (Cert.ReferenceIdeal.ReadP.val_main_v49 (F := Ideal) x0 x1 x2 x3 x4) (ix2 P k) * ((Cert.ReferenceIdeal.ReadP.val_main_v10 (F := Ideal) x1) (ix1 P) * (Cert.ReferenceIdeal.ReadP.val_main_v10 (F := Ideal) x1) (ix1 P))) + x5 (ix1 k) := by
  rw [Cert.ReferenceIdeal.ReadP.val_main_v69_apply, Cert.ReferenceIdeal.ReadP.val_main_v68_apply, Cert.ReferenceIdeal.ReadP.val_main_v67_apply, Cert.ReferenceIdeal.ReadP.val_main_v66_apply, Cert.ReferenceIdeal.ReadP.val_main_v65_apply, Cert.ReferenceIdeal.ReadP.val_main_v64_apply,
    Cert.ReferenceIdeal.ReadP.val_main_v63_apply, Cert.ReferenceIdeal.ReadP.val_main_v26_apply]
  have hb : Cert.ReferenceIdeal.ReadP.idx_main_v67 (Cert.ReferenceIdeal.ReadP.idx_main_v68 (ix2 P k)) = ix1 k := funext fun a => by
    match a with
    | ⟨0, _⟩ => rfl
  have hd : Cert.ReferenceIdeal.ReadP.idx_main_v63 (Cert.ReferenceIdeal.ReadP.idx_main_v64 (ix2 P k)) = ix1 P := funext fun a => by
    match a with
    | ⟨0, _⟩ => rfl
  rw [hb, hd]
  -- four extended reals from here on
  generalize Cert.ReferenceIdeal.ReadP.val_main_v62 (F := Ideal) x0 x1 x2 x3 x4 (ix2 P k) = s
  generalize (Cert.ReferenceIdeal.ReadP.val_main_v49 (F := Ideal) x0 x1 x2 x3 x4) (ix2 P k) = hh
  generalize (Cert.ReferenceIdeal.ReadP.val_main_v10 (F := Ideal) x1) (ix1 P) = dd
  generalize x5 (ix1 k) = bb
  rfl

/-- The rows the reference scatters: the gathered source row times the edge's two normalizers. -/
theorem layer40_ref_rows : Cert.ReferenceIdeal.ReadP.val_main_v59 (F := Ideal) x0 x1 x2 x3 x4 = (fun j' => Host.gather (rowsGather 100000 3200000 40 gather_S100000x40_S3200000x1_S3200000x40_1_0_n_n_0_1_140_wf) (Cert.ReferenceIdeal.ReadP.val_main_v49 (F := Ideal) x0 x1 x2 x3 x4) (wrappedSlots (srcCol x1)) j'
        * (Host.gather (flatGather 100000 3200000 flatWf) (Cert.ReferenceIdeal.ReadP.val_main_v10 (F := Ideal) x1) (wrappedSlots (srcCol x1)) (ix1 (row0 j'))
          * Host.gather (flatGather 100000 3200000 flatWf) (Cert.ReferenceIdeal.ReadP.val_main_v10 (F := Ideal) x1) (wrappedSlots (dstCol x1)) (ix1 (row0 j')))) := funext fun j' => by
  rw [Cert.ReferenceIdeal.ReadP.val_main_v59_apply, Cert.ReferenceIdeal.ReadP.val_main_v58_apply, Cert.ReferenceIdeal.ReadP.val_main_v57_apply, Cert.ReferenceIdeal.ReadP.val_main_v25_apply]
  have hi : Cert.ReferenceIdeal.ReadP.idx_main_v57 (Cert.ReferenceIdeal.ReadP.idx_main_v58 j') = ix1 (row0 j') := funext fun a => by
    match a with
    | ⟨0, _⟩ => rfl
  rw [hi]
  unfold Cert.ReferenceIdeal.ReadP.val_main_v56 Cert.ReferenceIdeal.ReadP.val_main_v17 Cert.ReferenceIdeal.ReadP.val_main_v24
  rw [srcRead40_eq, srcReadN_eq, dstReadN_eq, gatherR40_eq, gatherRN_eq]
  generalize Host.gather (rowsGather 100000 3200000 40 gather_S100000x40_S3200000x1_S3200000x40_1_0_n_n_0_1_140_wf) (Cert.ReferenceIdeal.ReadP.val_main_v49 (F := Ideal) x0 x1 x2 x3 x4) (wrappedSlots (srcCol x1)) j' = g0
  generalize Host.gather (flatGather 100000 3200000 flatWf) (Cert.ReferenceIdeal.ReadP.val_main_v10 (F := Ideal) x1) (wrappedSlots (srcCol x1)) (ix1 (row0 j')) = g1
  generalize Host.gather (flatGather 100000 3200000 flatWf) (Cert.ReferenceIdeal.ReadP.val_main_v10 (F := Ideal) x1) (wrappedSlots (dstCol x1)) (ix1 (row0 j')) = g2
  rfl

/-- The reference's scattered sum, as the exact sum over the slots that land on the node. -/
theorem layer40_ref_sum (P : Fin 100000) (k : Fin 40) :
    Cert.ReferenceIdeal.ReadP.val_main_v62 (F := Ideal) x0 x1 x2 x3 x4 (ix2 P k)
      = Ideal.hostScatterAdd (rowsScatter 100000 3200000 40 scatter_S100000x40_S3200000x1_S3200000x40_1_0_0_1_wf) (fun _ => 0) (asSlots (dstCol x1)) (fun j' => Host.gather (rowsGather 100000 3200000 40 gather_S100000x40_S3200000x1_S3200000x40_1_0_n_n_0_1_140_wf) (Cert.ReferenceIdeal.ReadP.val_main_v49 (F := Ideal) x0 x1 x2 x3 x4) (wrappedSlots (srcCol x1)) j'
        * (Host.gather (flatGather 100000 3200000 flatWf) (Cert.ReferenceIdeal.ReadP.val_main_v10 (F := Ideal) x1) (wrappedSlots (srcCol x1)) (ix1 (row0 j'))
          * Host.gather (flatGather 100000 3200000 flatWf) (Cert.ReferenceIdeal.ReadP.val_main_v10 (F := Ideal) x1) (wrappedSlots (dstCol x1)) (ix1 (row0 j')))) (ix2 P k) := by
  have hz : Cert.ReferenceIdeal.ReadP.val_main_v60 (F := Ideal) = fun _ => (0 : EReal) := funext fun i => by
    rw [Cert.ReferenceIdeal.ReadP.val_main_v60_apply, Cert.ReferenceIdeal.ReadP.val_main_cst_10_apply]; exact Ideal.ofBits_zero_f32
  unfold Cert.ReferenceIdeal.ReadP.val_main_v62
  rw [layer40_ref_rows, hz, dstSlots40_eq, scatterAdd_ideal _ _ scatterR40_eq]

/-- The kernel's neighbour sum of a scaled feature array, as the exact sum over the slots that land on the node. -/
theorem layer40_kernel_sum (HS : (⟨S100000x40, .f32⟩ : BufTy).Contents (Elt Ideal)) (P : Fin 100000) (k : Fin 40) :
    neighbourSum40 HS (srcCol x1) (dstCol x1) (ix2 P k)
      = Ideal.hostScatterAdd (rowsScatter 100000 3200000 40 scatter_S100000x40_S3200000x1_S3200000x40_1_0_0_1_wf) (fun _ => 0) (asSlots (dstCol x1))
          (Host.gather (rowsGather 100000 3200000 40 gather_S100000x40_S3200000x1_S3200000x40_1_0_n_n_0_1_140_wf) HS (wrappedSlots (srcCol x1))) (ix2 P k) := by
  have hzK : (broadcastInDim S100000x40 ![] bcast_S_S100000x40 (constant (F := Ideal) S_ .f32 0x00000000#32)) = fun _ => (0 : EReal) :=
    funext fun _ => Ideal.ofBits_zero_f32
  unfold neighbourSum40
  rw [hzK, gatherK40_eq, scatterAdd_ideal _ _ scatterK40_eq]

/-- THE 40-WIDE LAYER IN BOTH PROGRAMS.  `HS` is the kernel's scaled feature array: the reference's transformed features with
    every row scaled by its node's normalizer.  Then the kernel's combined row (scaled sum of the neighbours' scaled rows and the
    node's own, plus the bias) is the reference's layer (weighted neighbour sum, self loop, bias) at every node and feature. -/
theorem layer40 (HS : (⟨S100000x40, .f32⟩ : BufTy).Contents (Elt Ideal))
    (hHS : HS = (fun i => (Cert.ReferenceIdeal.ReadP.val_main_v49 (F := Ideal) x0 x1 x2 x3 x4) i * (Cert.ReferenceIdeal.ReadP.val_main_v10 (F := Ideal) x1) (ix1 (row0 i)))) (P : Fin 100000) (k : Fin 40) :
    normalizerCol (dstCol x1) (ix2 P (0 : Fin 1)) * (neighbourSum40 HS (srcCol x1) (dstCol x1) (ix2 P k) + HS (ix2 P k)) + x5 (ix1 k)
      = Cert.ReferenceIdeal.ReadP.val_main_v69 (F := Ideal) x0 x1 x2 x3 x4 x5 (ix2 P k) := by
  have key := aggregate_normalized (N := 100000) (E := 3200000) (K := 40) (w := 32) (by norm_num) gather_S100000x40_S3200000x1_S3200000x40_1_0_n_n_0_1_140_wf scatter_S100000x40_S3200000x1_S3200000x40_1_0_0_1_wf flatWf
    (Cert.ReferenceIdeal.ReadP.val_main_v49 (F := Ideal) x0 x1 x2 x3 x4) (Cert.ReferenceIdeal.ReadP.val_main_v10 (F := Ideal) x1) (asSlots (dstCol x1)) (wrappedSlots (srcCol x1)) (wrappedSlots (dstCol x1))
    (normalizer_nonneg_ne_top x1) (lands_reads (dstCol x1)) P k
  rw [layer40_ref_read, layer40_ref_sum, ← key, normalizerCol_apply, layer40_kernel_sum, hHS]

/-- First layer: the kernel's first call against the reference's first matrix product. -/
theorem scaled_first :
    scaledTransform x0 x2 (normalizerCol (dstCol x1))
      = fun i => Cert.ReferenceIdeal.ReadP.val_main_v27 (F := Ideal) x0 x2 i * Cert.ReferenceIdeal.ReadP.val_main_v10 (F := Ideal) x1 (ix1 (row0 i)) := funext fun i => by
  obtain ⟨r, k, rfl⟩ : ∃ (r : Fin 100000) (k : Fin 16), i = ix2 r k := ⟨i 0, i 1, eq_ix2 i⟩
  rw [scaledTransform_apply _ _ _ _ r k rfl rfl, normalizerCol_apply, Cert.ReferenceIdeal.ReadP.val_main_v27_apply]
  have hl : ∀ q : Fin 256, Cert.ReferenceIdeal.ReadP.lidx_main_v27 (ix2 r k) q = ix2 r q := fun q => funext fun a => by
    match a with
    | ⟨0, _⟩ => rfl
    | ⟨1, _⟩ => rfl
  have hr : ∀ q : Fin 256, Cert.ReferenceIdeal.ReadP.ridx_main_v27 (ix2 r k) q = ix2 q k := fun q => funext fun a => by
    match a with
    | ⟨0, _⟩ => rfl
    | ⟨1, _⟩ => rfl
  simp only [hl, hr, row0_ix2]

/-- The first layer's positive part, in both programs. -/
theorem rectified_eq (P : Fin 100000) (j : Fin 16) :
    rectified (neighbourSum16 (scaledTransform x0 x2 (normalizerCol (dstCol x1))) (srcCol x1) (dstCol x1))
        (scaledTransform x0 x2 (normalizerCol (dstCol x1))) (normalizerCol (dstCol x1)) x3 P j
      = Cert.ReferenceIdeal.ReadP.val_main_v48 (F := Ideal) x0 x1 x2 x3 (ix2 P j) := by
  unfold rectified
  rw [layer16 x0 x1 x2 x3 _ (scaled_first x0 x1 x2) P j, Cert.ReferenceIdeal.ReadP.val_main_v48_apply, Cert.ReferenceIdeal.ReadP.val_main_call0_v0_apply,
    Cert.ReferenceIdeal.ReadP.val_main_call0_cst_apply, Ideal.maximumf_def, Ideal.ofBits_def]

/-- Second layer: the kernel's second call against the reference's second matrix product. -/
theorem scaled_second :
    hiddenTransform (neighbourSum16 (scaledTransform x0 x2 (normalizerCol (dstCol x1))) (srcCol x1) (dstCol x1))
        (scaledTransform x0 x2 (normalizerCol (dstCol x1))) (normalizerCol (dstCol x1)) x3 x4
      = fun i => Cert.ReferenceIdeal.ReadP.val_main_v49 (F := Ideal) x0 x1 x2 x3 x4 i * Cert.ReferenceIdeal.ReadP.val_main_v10 (F := Ideal) x1 (ix1 (row0 i)) := funext fun i => by
  obtain ⟨r, k, rfl⟩ : ∃ (r : Fin 100000) (k : Fin 40), i = ix2 r k := ⟨i 0, i 1, eq_ix2 i⟩
  rw [hiddenTransform_apply _ _ _ _ _ _ r k rfl rfl, normalizerCol_apply, Cert.ReferenceIdeal.ReadP.val_main_v49_apply]
  have hl : ∀ q : Fin 16, Cert.ReferenceIdeal.ReadP.lidx_main_v49 (ix2 r k) q = ix2 r q := fun q => funext fun a => by
    match a with
    | ⟨0, _⟩ => rfl
    | ⟨1, _⟩ => rfl
  have hr : ∀ q : Fin 16, Cert.ReferenceIdeal.ReadP.ridx_main_v49 (ix2 r k) q = ix2 q k := fun q => funext fun a => by
    match a with
    | ⟨0, _⟩ => rfl
    | ⟨1, _⟩ => rfl
  simp only [hl, hr, row0_ix2, rectified_eq]

/-! ## The reference's log-softmax, read as a function of the row -/

/-- A maximum folded from `b` is at least `b`. -/
theorem le_fold_max_init {ι : Type} (s : Finset ι) (b : EReal) (z : ι → EReal) : b ≤ s.fold max b z := by
  classical
  induction s using Finset.induction_on with
  | empty => simp
  | insert a s ha ih =>
    rw [Finset.fold_insert ha]
    exact le_trans ih (le_max_right _ _)

/-- The larger of minus infinity and a maximum folded from minus infinity is that maximum. -/
theorem max_rowMax (z : Fin 40 → EReal) :
    FloatOps.maximumf (F := Ideal) (φ := .f32) (FloatOps.ofBits .f32 0xFF800000#32)
        ((Finset.univ : Finset (Fin 40)).fold FloatOps.maximumf (FloatOps.ofBits (F := Ideal) .f32 0xFF800000#32) z) = rowMax z := by
  show max (Ideal.ofBits .f32 0xFF800000#32) ((Finset.univ : Finset (Fin 40)).fold max (Ideal.ofBits .f32 0xFF800000#32) z)
    = (Finset.univ : Finset (Fin 40)).fold max (Ideal.ofBits .f32 0xFF800000#32) z
  exact max_eq_right (le_fold_max_init _ _ _)

/-- A fold of `max` over the classes of row `P` of an array with 40 columns, spelled through the reduction's index lift, is the fold
    over `Fin 40` of the row's entries.  Stated for an arbitrary array, so the re-indexing never meets a particular one. -/
theorem fold_lift_row {a : Nat} (x : (⟨2, ![a, 40]⟩ : Shape).Idx → EReal)
    (hred : (⟨2, ![a, 40]⟩ : Shape).Reduces [1] (⟨1, ![a]⟩ : Shape)) (P : Fin a) (b : EReal) :
    (Finset.univ : Finset (Fin ((⟨2, ![a, 40]⟩ : Shape).size 1))).fold (FloatOps.maximumf (F := Ideal) (φ := .f32)) b (x ∘ hred.lift (ix1 P))
      = (Finset.univ : Finset (Fin 40)).fold (FloatOps.maximumf (F := Ideal) (φ := .f32)) b (fun k' => x (ix2 P k')) := by
  have hf : (x ∘ hred.lift (ix1 P)) = fun k' : Fin 40 => x (ix2 P k') :=
    funext fun k' => congrArg x (funext fun c => Fin.ext (by fin_cases c <;> rfl))
  exact congrArg (fun f => Finset.fold (FloatOps.maximumf (F := Ideal) (φ := .f32)) b f (Finset.univ : Finset (Fin 40))) hf

/-- The reference's row maximum at node `P`: the maximum of the second layer's row, folded from minus infinity. -/
theorem ref_rowMax (P : Fin 100000) :
    Cert.ReferenceIdeal.ReadP.val_main_call1_v2 (F := Ideal) x0 x1 x2 x3 x4 x5 (ix1 P) = rowMax (fun k' => Cert.ReferenceIdeal.ReadP.val_main_v69 (F := Ideal) x0 x1 x2 x3 x4 x5 (ix2 P k')) := by
  have hred : Cert.ReferenceIdeal.S100000x40.Reduces [1] Cert.ReferenceIdeal.S100000 := by decide
  rw [Cert.ReferenceIdeal.ReadP.val_main_call1_v2_apply, Cert.ReferenceIdeal.ReadP.val_main_call1_v1_apply, Cert.ReferenceIdeal.ReadP.val_main_call1_cst_0_apply]
  unfold Cert.ReferenceIdeal.ReadP.val_main_call1_v0
  rw [Host.reduce_eq_fold_single FloatOps.maximumf _ _ Cert.ReferenceIdeal.Gen.reducesTo_S100000x40_S100000_d1 hred Cert.ReferenceIdeal.Gen.h_S_ (ix1 P),
    fold_lift_row, Cert.ReferenceIdeal.ReadP.val_main_call1_cst_apply]
  generalize (fun k' : Fin 40 => Cert.ReferenceIdeal.ReadP.val_main_v69 (F := Ideal) x0 x1 x2 x3 x4 x5 (ix2 P k')) = z
  exact max_rowMax z

/-- The broadcast row maximum, read anywhere in row `P`. -/
theorem ref_rowMax_bcast (P : Fin 100000) (k'' : Fin 40) :
    Cert.ReferenceIdeal.ReadP.val_main_call1_v4 (F := Ideal) x0 x1 x2 x3 x4 x5 (ix2 P k'') = rowMax (fun k' => Cert.ReferenceIdeal.ReadP.val_main_v69 (F := Ideal) x0 x1 x2 x3 x4 x5 (ix2 P k')) := by
  have hi : Cert.ReferenceIdeal.ReadP.idx_main_call1_v3 (Cert.ReferenceIdeal.ReadP.idx_main_call1_v4 (ix2 P k'')) = ix1 P := funext fun a => by
    match a with
    | ⟨0, _⟩ => rfl
  rw [Cert.ReferenceIdeal.ReadP.val_main_call1_v4_apply, Cert.ReferenceIdeal.ReadP.val_main_call1_v3_apply, hi, ref_rowMax]

/-- The reference's exponentials of the shifted row. -/
theorem ref_exp (P : Fin 100000) (k' : Fin 40) :
    Cert.ReferenceIdeal.ReadP.val_main_call1_v6 (F := Ideal) x0 x1 x2 x3 x4 x5 (Cert.ReferenceIdeal.ReadP.idx_main_call1_v7 (ix1 P) k')
      = Ideal.exp (Cert.ReferenceIdeal.ReadP.val_main_v69 (F := Ideal) x0 x1 x2 x3 x4 x5 (ix2 P k') - rowMax (fun k' => Cert.ReferenceIdeal.ReadP.val_main_v69 (F := Ideal) x0 x1 x2 x3 x4 x5 (ix2 P k'))) := by
  have hi7 : Cert.ReferenceIdeal.ReadP.idx_main_call1_v7 (ix1 P) k' = ix2 P k' := funext fun a => by
    match a with
    | ⟨0, _⟩ => rfl
    | ⟨1, _⟩ => rfl
  rw [hi7, Cert.ReferenceIdeal.ReadP.val_main_call1_v6_apply, Cert.ReferenceIdeal.ReadP.val_main_call1_v5_apply, ref_rowMax_bcast, Ideal.hostUnary_exp_def, Ideal.subf_def]

/-- The reference's sum of the exponentials of the shifted row. -/
theorem ref_sumExp (P : Fin 100000) :
    Cert.ReferenceIdeal.ReadP.val_main_call1_v7 (F := Ideal) x0 x1 x2 x3 x4 x5 (ix1 P)
      = ∑ k' : Fin 40, Ideal.exp (Cert.ReferenceIdeal.ReadP.val_main_v69 (F := Ideal) x0 x1 x2 x3 x4 x5 (ix2 P k') - rowMax (fun k' => Cert.ReferenceIdeal.ReadP.val_main_v69 (F := Ideal) x0 x1 x2 x3 x4 x5 (ix2 P k'))) := by
  have h0 : Cert.ReferenceIdeal.ReadP.val_main_call1_cst_1 (F := Ideal) (Shape.Idx.first Cert.ReferenceIdeal.Gen.h_S_) = 0 := by
    rw [Cert.ReferenceIdeal.ReadP.val_main_call1_cst_1_apply, Ideal.ofBits_def]; exact Ideal.ofBits_zero_f32
  rw [Cert.ReferenceIdeal.ReadP.val_main_call1_v7_apply, h0, zero_add]
  exact Finset.sum_congr rfl fun k' _ => ref_exp x0 x1 x2 x3 x4 x5 P k'

theorem ref_logSoftmax (P : Fin 100000) (k : Fin 40) :
    Cert.ReferenceIdeal.ReadP.val_main_v70 (F := Ideal) x0 x1 x2 x3 x4 x5 (ix2 P k)
      = logSoftmaxRow (fun k' => Cert.ReferenceIdeal.ReadP.val_main_v69 (F := Ideal) x0 x1 x2 x3 x4 x5 (ix2 P k')) k := by
  have hi8 : Cert.ReferenceIdeal.ReadP.idx_main_call1_v8 (Cert.ReferenceIdeal.ReadP.idx_main_call1_v10 (ix2 P k)) = ix1 P := funext fun a => by
    match a with
    | ⟨0, _⟩ => rfl
  rw [Cert.ReferenceIdeal.ReadP.val_main_v70_apply, Cert.ReferenceIdeal.ReadP.val_main_call1_v5_apply, ref_rowMax_bcast, Cert.ReferenceIdeal.ReadP.val_main_call1_v10_apply, Cert.ReferenceIdeal.ReadP.val_main_call1_v9_apply,
    Cert.ReferenceIdeal.ReadP.val_main_call1_v8_apply, hi8, ref_sumExp]
  unfold logSoftmaxRow
  rw [Ideal.subf_def, Ideal.subf_def, Ideal.hostUnary_log_def]

/-- THE KERNEL PROGRAM'S RESULT IS THE REFERENCE'S, as functions of the six argument arrays, at every node and class. -/
theorem value_eq : kernelValue x0 x1 x2 x3 x4 x5 = Cert.ReferenceIdeal.ReadP.val_main_v70 (F := Ideal) x0 x1 x2 x3 x4 x5 := funext fun i => by
  obtain ⟨P, k, rfl⟩ : ∃ (P : Fin 100000) (k : Fin 40), i = ix2 P k := ⟨i 0, i 1, eq_ix2 i⟩
  unfold kernelValue
  rw [classLogProbs_apply _ _ _ _ _ P k rfl rfl, ref_logSoftmax]
  refine congrArg (fun z => logSoftmaxRow z k) (funext fun k' => ?_)
  unfold combinedRow
  exact layer40 x0 x1 x2 x3 x4 x5 _ (scaled_second x0 x1 x2 x3 x4) P k'

end Cert.Bridge

end
-- ==== Proof.lean ====
/-
  A two-layer graph convolution with a row-wise log-softmax, computed two ways, gives one result on the extended reals.

  THE REFERENCE normalizes per edge.  With `d c = (1 + indegree c)^(-1/2)`, a layer transforms the node features (`h = x W`),
  weighs the row of every edge's source node by `d (source) * d (target)`, sums the weighted rows onto the targets, adds the
  self loop `h c * (d c * d c)` and the bias; the first layer is rectified, the second goes through the log-softmax of each row.

  THE KERNEL PROGRAM normalizes per node.  Its first call forms `hs = (x W) * d` row by row; the host sums the rows `hs (source)`
  onto the targets with no per-edge factor; the next call scales the sum plus the node's own `hs c` by `d c`, adds the bias —
  and, in the same call, rectifies, transforms and scales for the second layer, or takes the log-softmax.

  WHY THEY AGREE.  `d c` does not depend on the edge within the sum over the edges into `c`, so it factors out:
  `d c * (∑ h (source) * d (source) + h c * d c) = ∑ h (source) * (d (source) * d c) + h c * (d c * d c)`.
  On the extended reals a factor distributes over a sum when it is nonnegative and finite, whatever the summands; and `d c` is
  such a factor, the reciprocal square root of one plus a finite count.  So the precondition on the float inputs is never opened.
  The edge list may hold any integers: a slot whose target is no node is dropped by both sums alike, and a slot that lands on
  node `c` has target word `c`, which the reference's gather of `d (target)` neither wraps nor clamps.
  Changes of float format are the identity, a matrix product is the plain sum, and a lane reduction is the fold or the sum over
  the row, so everything outside the law above is the same function on both sides.

  The pieces: each kernel call's output array as one function of its input arrays (Proof/Transform, Hidden, LogProbs); the
  kernel program's run with its result kept and that result as one function of the arguments (Proof/KernelRun, KernelValue); the
  reference's run read back stage by stage (Proof/ReferenceRun); the index facts and the law (Proof/EdgeIndex, SegmentLaw,
  Aggregate); the comparison (Proof/Bridge).
-/
import proofs.«154231_j56642028700327_2_alg».proof.Defs
import proofs.«154231_j56642028700327_2_alg».proof.Proof.Gen.Kernel
import proofs.«154231_j56642028700327_2_alg».proof.Proof.Gen.Kernel.Frame
import proofs.«154231_j56642028700327_2_alg».proof.Proof.Gen.KernelIdeal
import proofs.«154231_j56642028700327_2_alg».proof.Proof.Gen.KernelIdeal.Frame
import proofs.«154231_j56642028700327_2_alg».proof.Proof.Gen.ReferenceIdeal
import proofs.«154231_j56642028700327_2_alg».proof.Proof.Gen.Pre_finite_inputs
import proofs.«154231_j56642028700327_2_alg».proof.Proof.KernelRun
import proofs.«154231_j56642028700327_2_alg».proof.Proof.KernelValue
import proofs.«154231_j56642028700327_2_alg».proof.Proof.ReferenceRun
import proofs.«154231_j56642028700327_2_alg».proof.Proof.Bridge
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- The idealization rewrote no operation. -/
theorem preserves : Cert.preserves_Kernel_KernelIdeal := trivial

/-- From memories that agree on the arguments both programs end with the same result array: the kernel program's is
    `kernelValue` of the arguments, the reference's its last stage function of them, and the two are one function. -/
theorem algebraic : Cert.algebraic_KernelIdeal_ReferenceIdeal := by
  intro m ρ m' ρ' _ hagree
  refine ⟨fun c => Cert.KernelIdeal.Layers.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Layers.boundary_value m ρ c), (h c).2⟩)
      (Cert.KernelIdeal.Layers.run_out (F := Ideal) m ρ)
  · refine (θ_run Cert.ReferenceIdeal.defs _ _).mono (fun _ h c => ⟨(h c).1.trans ?_, (h c).2⟩)
      (Cert.ReferenceIdeal.Stages.run (F := Ideal) m' ρ')
    rw [(hagree c).1, (hagree c).2.1, (hagree c).2.2.1, (hagree c).2.2.2.1, (hagree c).2.2.2.2.1, (hagree c).2.2.2.2.2]
    exact (Cert.Bridge.value_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
